-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v392) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S49x2x3x256x256 : Shape := ⟨5, ![49, 2, 3, 256, 256]⟩
abbrev S_ : Shape := ⟨0, ![]⟩

class Facts : Prop where
  bcast_S_S49x2x3x256x256 : S_.BroadcastsInDim S49x2x3x256x256 (![] : Fin 0 → Fin S49x2x3x256x256.rank)
  reducesTo_S49x2x3x256x256_S_d0_1_2_3_4 : S49x2x3x256x256.ReducesTo [0, 1, 2, 3, 4] S_
  h_S_ : 0 < S_.numel

variable [Facts]

def fn {F : FTy → Type} [FloatOps F] (main_arg0 : FVec F S49x2x3x256x256 .f32) : IVec S_ 1 :=
  let main_v0 : FVec F S49x2x3x256x256 .f32 := Host.absf main_arg0
  let main_cst : FVec F S_ .f32 := constant S_ .f32 0x7F800000#32
  let main_v1 : FVec F S49x2x3x256x256 .f32 := broadcastInDim S49x2x3x256x256 ![] bcast_S_S49x2x3x256x256 main_cst
  let main_v2 : IVec S49x2x3x256x256 1 := cmpf .olt main_v0 main_v1
  let main_c : IVec S_ 1 := constantI S_ 1 1#1
  let main_v3 : IVec S_ 1 := (fun x v => Host.reduce IntOp.andi x v reducesTo_S49x2x3x256x256_S_d0_1_2_3_4 h_S_) main_v2 main_c
  main_v3
-- ==== Kernel.lean ====
abbrev S49x2x3x256x256 : Shape := ⟨5, ![49, 2, 3, 256, 256]⟩
abbrev S2x3x1024x1024 : Shape := ⟨4, ![2, 3, 1024, 1024]⟩
abbrev S1x2x3x128x128 : Shape := ⟨5, ![1, 2, 3, 128, 128]⟩
abbrev S2x3x128x128 : Shape := ⟨4, ![2, 3, 128, 128]⟩

abbrev nBuf : Space → Nat
  | .hbm => 2
  | .vmem => 10
  | .smem => 0
  | _ => 0

abbrev bufTy : (tb : Table) → Fin (tcTables nBuf tb) → BufTy
  | .hbm, ⟨0, _⟩ => ⟨S49x2x3x256x256, .f32⟩
  | .hbm, ⟨1, _⟩ => ⟨S2x3x1024x1024, .f32⟩
  | .local _ .vmem, ⟨0, _⟩ => ⟨S1x2x3x128x128, .f32⟩
  | .local _ .vmem, ⟨1, _⟩ => ⟨S1x2x3x128x128, .f32⟩
  | .local _ .vmem, ⟨2, _⟩ => ⟨S1x2x3x128x128, .f32⟩
  | .local _ .vmem, ⟨3, _⟩ => ⟨S1x2x3x128x128, .f32⟩
  | .local _ .vmem, ⟨4, _⟩ => ⟨S1x2x3x128x128, .f32⟩
  | .local _ .vmem, ⟨5, _⟩ => ⟨S1x2x3x128x128, .f32⟩
  | .local _ .vmem, ⟨6, _⟩ => ⟨S1x2x3x128x128, .f32⟩
  | .local _ .vmem, ⟨7, _⟩ => ⟨S1x2x3x128x128, .f32⟩
  | .local _ .vmem, ⟨8, _⟩ => ⟨S2x3x128x128, .f32⟩
  | .local _ .vmem, ⟨9, _⟩ => ⟨S2x3x128x128, .f32⟩
  | _, _ => ⟨S49x2x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c6_i32 : BitVec 32 := 6#32
  let v0 : BitVec 32 := Scalar.minsi arg0 c6_i32
  let c6_i32_0 : BitVec 32 := 6#32
  let v1 : BitVec 32 := Scalar.minsi arg1 c6_i32_0
  let c7_i32 : BitVec 32 := 7#32
  let v2 : BitVec 32 := Scalar.muli c7_i32 v0
  let v3 : BitVec 32 := Scalar.addi v2 v1
  let c0_i32 : BitVec 32 := 0#32
  let c0_i32_1 : BitVec 32 := 0#32
  let c0_i32_2 : BitVec 32 := 0#32
  let c0_i32_3 : BitVec 32 := 0#32
  let c0_i32_4 : BitVec 32 := 0#32
  ![v3.toNat, c0_i32.toNat, c0_i32_1.toNat, c0_i32_2.toNat, c0_i32_3.toNat]

def cc0_transform_1 (i : grid0.Coords) : Fin 5 → Nat :=
  let arg0 : BitVec 32 := BitVec.ofNat 32 (i 0).val
  let arg1 : BitVec 32 := BitVec.ofNat 32 (i 1).val
  let c6_i32 : BitVec 32 := 6#32
  let v0 : BitVec 32 := Scalar.minsi arg0 c6_i32
  let c1_i32 : BitVec 32 := 1#32
  let v1 : BitVec 32 := Scalar.subi arg1 c1_i32
  let c0_i32 : BitVec 32 := 0#32
  let v2 : BitVec 32 := Scalar.maxsi v1 c0_i32
  let c7_i32 : BitVec 32 := 7#32
  let v3 : BitVec 32 := Scalar.muli c7_i32 v0
  let v4 : BitVec 32 := Scalar.addi v3 v2
  let c0_i32_0 : BitVec 32 := 0#32
  let c0_i32_1 : BitVec 32 := 0#32
  let c0_i32_2 : BitVec 32 := 0#32
  let c1_i32_3 : BitVec 32 := 1#32
  let c0_i32_4 : BitVec 32 := 0#32
  ![v4.toNat, c0_i32_0.toNat, c0_i32_1.toNat, c0_i32_2.toNat, c1_i32_3.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.minsi arg1 c6_i32
  let c7_i32 : BitVec 32 := 7#32
  let v3 : BitVec 32 := Scalar.muli c7_i32 v1
  let v4 : BitVec 32 := Scalar.addi v3 v2
  let c0_i32_0 : BitVec 32 := 0#32
  let c0_i32_1 : BitVec 32 := 0#32
  let c1_i32_2 : BitVec 32 := 1#32
  let c0_i32_3 : BitVec 32 := 0#32
  let c0_i32_4 : BitVec 32 := 0#32
  ![v4.toNat, c0_i32_0.toNat, c0_i32_1.toNat, c1_i32_2.toNat, c0_i32_3.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.subi arg1 c1_i32_0
  let c0_i32_1 : BitVec 32 := 0#32
  let v3 : BitVec 32 := Scalar.maxsi v2 c0_i32_1
  let c7_i32 : BitVec 32 := 7#32
  let v4 : BitVec 32 := Scalar.muli c7_i32 v1
  let v5 : BitVec 32 := Scalar.addi v4 v3
  let c0_i32_2 : BitVec 32 := 0#32
  let c0_i32_3 : BitVec 32 := 0#32
  let c1_i32_4 : BitVec 32 := 1#32
  let c1_i32_5 : BitVec 32 := 1#32
  let c0_i32_6 : BitVec 32 := 0#32
  ![v5.toNat, c0_i32_2.toNat, c0_i32_3.toNat, c1_i32_4.toNat, c1_i32_5.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 2 → Memref sig .tc .vmem S1x2x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x3x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x3x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x3x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2x3x128x128_S1x2x3x128x128_0_0_0_0_0 : ∀ a, (![0, 0, 0, 0, 0] : Fin 5 → Nat) a + S1x2x3x128x128.size a ≤ S1x2x3x128x128.size a
  h_S1x2x3x128x128 : 0 < S1x2x3x128x128.numel
  shapeCasts_S1x2x3x128x128_S2x3x128x128 : S1x2x3x128x128.ShapeCasts S2x3x128x128
  inb_S2x3x128x128_S2x3x128x128_0_0_0_0 : ∀ a, (![0, 0, 0, 0] : Fin 4 → Nat) a + S2x3x128x128.size a ≤ S2x3x128x128.size a
  h_S2x3x128x128 : 0 < S2x3x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x3x128x128.size a ≤ S49x2x3x256x256.size a
  hwx0_0 : ∀ i : grid0.Coords, EltTy.bits .f32 = 32 ∨ (Rect.block (s := S49x2x3x256x256) S1x2x3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x3x128x128.size a ≤ S49x2x3x256x256.size a
  hwx0_1 : ∀ i : grid0.Coords, EltTy.bits .f32 = 32 ∨ (Rect.block (s := S49x2x3x256x256) S1x2x3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x3x128x128.size a ≤ S49x2x3x256x256.size a
  hwx0_2 : ∀ i : grid0.Coords, EltTy.bits .f32 = 32 ∨ (Rect.block (s := S49x2x3x256x256) S1x2x3x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x3x128x128.size a ≤ S49x2x3x256x256.size a
  hwx0_3 : ∀ i : grid0.Coords, EltTy.bits .f32 = 32 ∨ (Rect.block (s := S49x2x3x256x256) S1x2x3x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x3x128x128.size a ≤ S2x3x1024x1024.size a
  hwx0_4 : ∀ i : grid0.Coords, EltTy.bits .f32 = 32 ∨ (Rect.block (s := S2x3x1024x1024) S2x3x128x128.size (cc0_transform_4 i) (hinb0_4 i)).WholeWords (EltTy.packing .f32)

variable [Facts₀]

abbrev win0_0 : Pipeline.Window sig grid0 :=
  Pipeline.Window.ofSpec (Memref.whole main_arg0) S1x2x3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2x3x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x2x3x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x3x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S49x2x3x256x256 : Shape := ⟨5, ![49, 2, 3, 256, 256]⟩
abbrev S_ : Shape := ⟨0, ![]⟩
abbrev S2x3x1024x1024 : Shape := ⟨4, ![2, 3, 1024, 1024]⟩
abbrev S2x3x256x256 : Shape := ⟨4, ![2, 3, 256, 256]⟩
abbrev S1x2x3x256x256 : Shape := ⟨5, ![1, 2, 3, 256, 256]⟩
abbrev S1 : Shape := ⟨1, ![1]⟩
abbrev S2 : Shape := ⟨1, ![2]⟩

abbrev nBuf : Space → Nat
  | .hbm => 493
  | .vmem => 0
  | .smem => 0
  | _ => 0

abbrev hbmTy0_0 (i : Nat) : BufTy := match i % 128 with
  | 0 => ⟨S49x2x3x256x256, .f32⟩
  | 1 => ⟨S_, .f32⟩
  | 2 => ⟨S2x3x1024x1024, .f32⟩
  | 3 => ⟨S2x3x256x256, .f32⟩
  | 4 => ⟨S1x2x3x256x256, .f32⟩
  | 5 => ⟨S2x3x256x256, .f32⟩
  | 6 => ⟨S2x3x256x256, .f32⟩
  | 7 => ⟨S_, .i32⟩
  | 8 => ⟨S1, .i32⟩
  | 9 => ⟨S_, .i32⟩
  | 10 => ⟨S1, .i32⟩
  | 11 => ⟨S2, .i32⟩
  | 12 => ⟨S2x3x1024x1024, .f32⟩
  | 13 => ⟨S2x3x256x256, .f32⟩
  | 14 => ⟨S1x2x3x256x256, .f32⟩
  | 15 => ⟨S2x3x256x256, .f32⟩
  | 16 => ⟨S2x3x256x256, .f32⟩
  | 17 => ⟨S_, .i32⟩
  | 18 => ⟨S1, .i32⟩
  | 19 => ⟨S_, .i32⟩
  | 20 => ⟨S1, .i32⟩
  | 21 => ⟨S2, .i32⟩
  | 22 => ⟨S2x3x1024x1024, .f32⟩
  | 23 => ⟨S2x3x256x256, .f32⟩
  | 24 => ⟨S1x2x3x256x256, .f32⟩
  | 25 => ⟨S2x3x256x256, .f32⟩
  | 26 => ⟨S2x3x256x256, .f32⟩
  | 27 => ⟨S_, .i32⟩
  | 28 => ⟨S1, .i32⟩
  | 29 => ⟨S_, .i32⟩
  | 30 => ⟨S1, .i32⟩
  | 31 => ⟨S2, .i32⟩
  | 32 => ⟨S2x3x1024x1024, .f32⟩
  | 33 => ⟨S2x3x256x256, .f32⟩
  | 34 => ⟨S1x2x3x256x256, .f32⟩
  | 35 => ⟨S2x3x256x256, .f32⟩
  | 36 => ⟨S2x3x256x256, .f32⟩
  | 37 => ⟨S_, .i32⟩
  | 38 => ⟨S1, .i32⟩
  | 39 => ⟨S_, .i32⟩
  | 40 => ⟨S1, .i32⟩
  | 41 => ⟨S2, .i32⟩
  | 42 => ⟨S2x3x1024x1024, .f32⟩
  | 43 => ⟨S2x3x256x256, .f32⟩
  | 44 => ⟨S1x2x3x256x256, .f32⟩
  | 45 => ⟨S2x3x256x256, .f32⟩
  | 46 => ⟨S2x3x256x256, .f32⟩
  | 47 => ⟨S_, .i32⟩
  | 48 => ⟨S1, .i32⟩
  | 49 => ⟨S_, .i32⟩
  | 50 => ⟨S1, .i32⟩
  | 51 => ⟨S2, .i32⟩
  | 52 => ⟨S2x3x1024x1024, .f32⟩
  | 53 => ⟨S2x3x256x256, .f32⟩
  | 54 => ⟨S1x2x3x256x256, .f32⟩
  | 55 => ⟨S2x3x256x256, .f32⟩
  | 56 => ⟨S2x3x256x256, .f32⟩
  | 57 => ⟨S_, .i32⟩
  | 58 => ⟨S1, .i32⟩
  | 59 => ⟨S_, .i32⟩
  | 60 => ⟨S1, .i32⟩
  | 61 => ⟨S2, .i32⟩
  | 62 => ⟨S2x3x1024x1024, .f32⟩
  | 63 => ⟨S2x3x256x256, .f32⟩
  | 64 => ⟨S1x2x3x256x256, .f32⟩
  | 65 => ⟨S2x3x256x256, .f32⟩
  | 66 => ⟨S2x3x256x256, .f32⟩
  | 67 => ⟨S_, .i32⟩
  | 68 => ⟨S1, .i32⟩
  | 69 => ⟨S_, .i32⟩
  | 70 => ⟨S1, .i32⟩
  | 71 => ⟨S2, .i32⟩
  | 72 => ⟨S2x3x1024x1024, .f32⟩
  | 73 => ⟨S2x3x256x256, .f32⟩
  | 74 => ⟨S1x2x3x256x256, .f32⟩
  | 75 => ⟨S2x3x256x256, .f32⟩
  | 76 => ⟨S2x3x256x256, .f32⟩
  | 77 => ⟨S_, .i32⟩
  | 78 => ⟨S1, .i32⟩
  | 79 => ⟨S_, .i32⟩
  | 80 => ⟨S1, .i32⟩
  | 81 => ⟨S2, .i32⟩
  | 82 => ⟨S2x3x1024x1024, .f32⟩
  | 83 => ⟨S2x3x256x256, .f32⟩
  | 84 => ⟨S1x2x3x256x256, .f32⟩
  | 85 => ⟨S2x3x256x256, .f32⟩
  | 86 => ⟨S2x3x256x256, .f32⟩
  | 87 => ⟨S_, .i32⟩
  | 88 => ⟨S1, .i32⟩
  | 89 => ⟨S_, .i32⟩
  | 90 => ⟨S1, .i32⟩
  | 91 => ⟨S2, .i32⟩
  | 92 => ⟨S2x3x1024x1024, .f32⟩
  | 93 => ⟨S2x3x256x256, .f32⟩
  | 94 => ⟨S1x2x3x256x256, .f32⟩
  | 95 => ⟨S2x3x256x256, .f32⟩
  | 96 => ⟨S2x3x256x256, .f32⟩
  | 97 => ⟨S_, .i32⟩
  | 98 => ⟨S1, .i32⟩
  | 99 => ⟨S_, .i32⟩
  | 100 => ⟨S1, .i32⟩
  | 101 => ⟨S2, .i32⟩
  | 102 => ⟨S2x3x1024x1024, .f32⟩
  | 103 => ⟨S2x3x256x256, .f32⟩
  | 104 => ⟨S1x2x3x256x256, .f32⟩
  | 105 => ⟨S2x3x256x256, .f32⟩
  | 106 => ⟨S2x3x256x256, .f32⟩
  | 107 => ⟨S_, .i32⟩
  | 108 => ⟨S1, .i32⟩
  | 109 => ⟨S_, .i32⟩
  | 110 => ⟨S1, .i32⟩
  | 111 => ⟨S2, .i32⟩
  | 112 => ⟨S2x3x1024x1024, .f32⟩
  | 113 => ⟨S2x3x256x256, .f32⟩
  | 114 => ⟨S1x2x3x256x256, .f32⟩
  | 115 => ⟨S2x3x256x256, .f32⟩
  | 116 => ⟨S2x3x256x256, .f32⟩
  | 117 => ⟨S_, .i32⟩
  | 118 => ⟨S1, .i32⟩
  | 119 => ⟨S_, .i32⟩
  | 120 => ⟨S1, .i32⟩
  | 121 => ⟨S2, .i32⟩
  | 122 => ⟨S2x3x1024x1024, .f32⟩
  | 123 => ⟨S2x3x256x256, .f32⟩
  | 124 => ⟨S1x2x3x256x256, .f32⟩
  | 125 => ⟨S2x3x256x256, .f32⟩
  | 126 => ⟨S2x3x256x256, .f32⟩
  | 127 => ⟨S_, .i32⟩
  | _ => ⟨S49x2x3x256x256, .f32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S2x3x1024x1024, .f32⟩
  | 5 => ⟨S2x3x256x256, .f32⟩
  | 6 => ⟨S1x2x3x256x256, .f32⟩
  | 7 => ⟨S2x3x256x256, .f32⟩
  | 8 => ⟨S2x3x256x256, .f32⟩
  | 9 => ⟨S_, .i32⟩
  | 10 => ⟨S1, .i32⟩
  | 11 => ⟨S_, .i32⟩
  | 12 => ⟨S1, .i32⟩
  | 13 => ⟨S2, .i32⟩
  | 14 => ⟨S2x3x1024x1024, .f32⟩
  | 15 => ⟨S2x3x256x256, .f32⟩
  | 16 => ⟨S1x2x3x256x256, .f32⟩
  | 17 => ⟨S2x3x256x256, .f32⟩
  | 18 => ⟨S2x3x256x256, .f32⟩
  | 19 => ⟨S_, .i32⟩
  | 20 => ⟨S1, .i32⟩
  | 21 => ⟨S_, .i32⟩
  | 22 => ⟨S1, .i32⟩
  | 23 => ⟨S2, .i32⟩
  | 24 => ⟨S2x3x1024x1024, .f32⟩
  | 25 => ⟨S2x3x256x256, .f32⟩
  | 26 => ⟨S1x2x3x256x256, .f32⟩
  | 27 => ⟨S2x3x256x256, .f32⟩
  | 28 => ⟨S2x3x256x256, .f32⟩
  | 29 => ⟨S_, .i32⟩
  | 30 => ⟨S1, .i32⟩
  | 31 => ⟨S_, .i32⟩
  | 32 => ⟨S1, .i32⟩
  | 33 => ⟨S2, .i32⟩
  | 34 => ⟨S2x3x1024x1024, .f32⟩
  | 35 => ⟨S2x3x256x256, .f32⟩
  | 36 => ⟨S1x2x3x256x256, .f32⟩
  | 37 => ⟨S2x3x256x256, .f32⟩
  | 38 => ⟨S2x3x256x256, .f32⟩
  | 39 => ⟨S_, .i32⟩
  | 40 => ⟨S1, .i32⟩
  | 41 => ⟨S_, .i32⟩
  | 42 => ⟨S1, .i32⟩
  | 43 => ⟨S2, .i32⟩
  | 44 => ⟨S2x3x1024x1024, .f32⟩
  | 45 => ⟨S2x3x256x256, .f32⟩
  | 46 => ⟨S1x2x3x256x256, .f32⟩
  | 47 => ⟨S2x3x256x256, .f32⟩
  | 48 => ⟨S2x3x256x256, .f32⟩
  | 49 => ⟨S_, .i32⟩
  | 50 => ⟨S1, .i32⟩
  | 51 => ⟨S_, .i32⟩
  | 52 => ⟨S1, .i32⟩
  | 53 => ⟨S2, .i32⟩
  | 54 => ⟨S2x3x1024x1024, .f32⟩
  | 55 => ⟨S2x3x256x256, .f32⟩
  | 56 => ⟨S1x2x3x256x256, .f32⟩
  | 57 => ⟨S2x3x256x256, .f32⟩
  | 58 => ⟨S2x3x256x256, .f32⟩
  | 59 => ⟨S_, .i32⟩
  | 60 => ⟨S1, .i32⟩
  | 61 => ⟨S_, .i32⟩
  | 62 => ⟨S1, .i32⟩
  | 63 => ⟨S2, .i32⟩
  | 64 => ⟨S2x3x1024x1024, .f32⟩
  | 65 => ⟨S2x3x256x256, .f32⟩
  | 66 => ⟨S1x2x3x256x256, .f32⟩
  | 67 => ⟨S2x3x256x256, .f32⟩
  | 68 => ⟨S2x3x256x256, .f32⟩
  | 69 => ⟨S_, .i32⟩
  | 70 => ⟨S1, .i32⟩
  | 71 => ⟨S_, .i32⟩
  | 72 => ⟨S1, .i32⟩
  | 73 => ⟨S2, .i32⟩
  | 74 => ⟨S2x3x1024x1024, .f32⟩
  | 75 => ⟨S2x3x256x256, .f32⟩
  | 76 => ⟨S1x2x3x256x256, .f32⟩
  | 77 => ⟨S2x3x256x256, .f32⟩
  | 78 => ⟨S2x3x256x256, .f32⟩
  | 79 => ⟨S_, .i32⟩
  | 80 => ⟨S1, .i32⟩
  | 81 => ⟨S_, .i32⟩
  | 82 => ⟨S1, .i32⟩
  | 83 => ⟨S2, .i32⟩
  | 84 => ⟨S2x3x1024x1024, .f32⟩
  | 85 => ⟨S2x3x256x256, .f32⟩
  | 86 => ⟨S1x2x3x256x256, .f32⟩
  | 87 => ⟨S2x3x256x256, .f32⟩
  | 88 => ⟨S2x3x256x256, .f32⟩
  | 89 => ⟨S_, .i32⟩
  | 90 => ⟨S1, .i32⟩
  | 91 => ⟨S_, .i32⟩
  | 92 => ⟨S1, .i32⟩
  | 93 => ⟨S2, .i32⟩
  | 94 => ⟨S2x3x1024x1024, .f32⟩
  | 95 => ⟨S2x3x256x256, .f32⟩
  | 96 => ⟨S1x2x3x256x256, .f32⟩
  | 97 => ⟨S2x3x256x256, .f32⟩
  | 98 => ⟨S2x3x256x256, .f32⟩
  | 99 => ⟨S_, .i32⟩
  | 100 => ⟨S1, .i32⟩
  | 101 => ⟨S_, .i32⟩
  | 102 => ⟨S1, .i32⟩
  | 103 => ⟨S2, .i32⟩
  | 104 => ⟨S2x3x1024x1024, .f32⟩
  | 105 => ⟨S2x3x256x256, .f32⟩
  | 106 => ⟨S1x2x3x256x256, .f32⟩
  | 107 => ⟨S2x3x256x256, .f32⟩
  | 108 => ⟨S2x3x256x256, .f32⟩
  | 109 => ⟨S_, .i32⟩
  | 110 => ⟨S1, .i32⟩
  | 111 => ⟨S_, .i32⟩
  | 112 => ⟨S1, .i32⟩
  | 113 => ⟨S2, .i32⟩
  | 114 => ⟨S2x3x1024x1024, .f32⟩
  | 115 => ⟨S2x3x256x256, .f32⟩
  | 116 => ⟨S1x2x3x256x256, .f32⟩
  | 117 => ⟨S2x3x256x256, .f32⟩
  | 118 => ⟨S2x3x256x256, .f32⟩
  | 119 => ⟨S_, .i32⟩
  | 120 => ⟨S1, .i32⟩
  | 121 => ⟨S_, .i32⟩
  | 122 => ⟨S1, .i32⟩
  | 123 => ⟨S2, .i32⟩
  | 124 => ⟨S2x3x1024x1024, .f32⟩
  | 125 => ⟨S2x3x256x256, .f32⟩
  | 126 => ⟨S1x2x3x256x256, .f32⟩
  | 127 => ⟨S2x3x256x256, .f32⟩
  | _ => ⟨S49x2x3x256x256, .f32⟩

abbrev hbmTy0_2 (i : Nat) : BufTy := match i % 128 with
  | 0 => ⟨S2x3x256x256, .f32⟩
  | 1 => ⟨S_, .i32⟩
  | 2 => ⟨S1, .i32⟩
  | 3 => ⟨S_, .i32⟩
  | 4 => ⟨S1, .i32⟩
  | 5 => ⟨S2, .i32⟩
  | 6 => ⟨S2x3x1024x1024, .f32⟩
  | 7 => ⟨S2x3x256x256, .f32⟩
  | 8 => ⟨S1x2x3x256x256, .f32⟩
  | 9 => ⟨S2x3x256x256, .f32⟩
  | 10 => ⟨S2x3x256x256, .f32⟩
  | 11 => ⟨S_, .i32⟩
  | 12 => ⟨S1, .i32⟩
  | 13 => ⟨S_, .i32⟩
  | 14 => ⟨S1, .i32⟩
  | 15 => ⟨S2, .i32⟩
  | 16 => ⟨S2x3x1024x1024, .f32⟩
  | 17 => ⟨S2x3x256x256, .f32⟩
  | 18 => ⟨S1x2x3x256x256, .f32⟩
  | 19 => ⟨S2x3x256x256, .f32⟩
  | 20 => ⟨S2x3x256x256, .f32⟩
  | 21 => ⟨S_, .i32⟩
  | 22 => ⟨S1, .i32⟩
  | 23 => ⟨S_, .i32⟩
  | 24 => ⟨S1, .i32⟩
  | 25 => ⟨S2, .i32⟩
  | 26 => ⟨S2x3x1024x1024, .f32⟩
  | 27 => ⟨S2x3x256x256, .f32⟩
  | 28 => ⟨S1x2x3x256x256, .f32⟩
  | 29 => ⟨S2x3x256x256, .f32⟩
  | 30 => ⟨S2x3x256x256, .f32⟩
  | 31 => ⟨S_, .i32⟩
  | 32 => ⟨S1, .i32⟩
  | 33 => ⟨S_, .i32⟩
  | 34 => ⟨S1, .i32⟩
  | 35 => ⟨S2, .i32⟩
  | 36 => ⟨S2x3x1024x1024, .f32⟩
  | 37 => ⟨S2x3x256x256, .f32⟩
  | 38 => ⟨S1x2x3x256x256, .f32⟩
  | 39 => ⟨S2x3x256x256, .f32⟩
  | 40 => ⟨S2x3x256x256, .f32⟩
  | 41 => ⟨S_, .i32⟩
  | 42 => ⟨S1, .i32⟩
  | 43 => ⟨S_, .i32⟩
  | 44 => ⟨S1, .i32⟩
  | 45 => ⟨S2, .i32⟩
  | 46 => ⟨S2x3x1024x1024, .f32⟩
  | 47 => ⟨S2x3x256x256, .f32⟩
  | 48 => ⟨S1x2x3x256x256, .f32⟩
  | 49 => ⟨S2x3x256x256, .f32⟩
  | 50 => ⟨S2x3x256x256, .f32⟩
  | 51 => ⟨S_, .i32⟩
  | 52 => ⟨S1, .i32⟩
  | 53 => ⟨S_, .i32⟩
  | 54 => ⟨S1, .i32⟩
  | 55 => ⟨S2, .i32⟩
  | 56 => ⟨S2x3x1024x1024, .f32⟩
  | 57 => ⟨S2x3x256x256, .f32⟩
  | 58 => ⟨S1x2x3x256x256, .f32⟩
  | 59 => ⟨S2x3x256x256, .f32⟩
  | 60 => ⟨S2x3x256x256, .f32⟩
  | 61 => ⟨S_, .i32⟩
  | 62 => ⟨S1, .i32⟩
  | 63 => ⟨S_, .i32⟩
  | 64 => ⟨S1, .i32⟩
  | 65 => ⟨S2, .i32⟩
  | 66 => ⟨S2x3x1024x1024, .f32⟩
  | 67 => ⟨S2x3x256x256, .f32⟩
  | 68 => ⟨S1x2x3x256x256, .f32⟩
  | 69 => ⟨S2x3x256x256, .f32⟩
  | 70 => ⟨S2x3x256x256, .f32⟩
  | 71 => ⟨S_, .i32⟩
  | 72 => ⟨S1, .i32⟩
  | 73 => ⟨S_, .i32⟩
  | 74 => ⟨S1, .i32⟩
  | 75 => ⟨S2, .i32⟩
  | 76 => ⟨S2x3x1024x1024, .f32⟩
  | 77 => ⟨S2x3x256x256, .f32⟩
  | 78 => ⟨S1x2x3x256x256, .f32⟩
  | 79 => ⟨S2x3x256x256, .f32⟩
  | 80 => ⟨S2x3x256x256, .f32⟩
  | 81 => ⟨S_, .i32⟩
  | 82 => ⟨S1, .i32⟩
  | 83 => ⟨S_, .i32⟩
  | 84 => ⟨S1, .i32⟩
  | 85 => ⟨S2, .i32⟩
  | 86 => ⟨S2x3x1024x1024, .f32⟩
  | 87 => ⟨S2x3x256x256, .f32⟩
  | 88 => ⟨S1x2x3x256x256, .f32⟩
  | 89 => ⟨S2x3x256x256, .f32⟩
  | 90 => ⟨S2x3x256x256, .f32⟩
  | 91 => ⟨S_, .i32⟩
  | 92 => ⟨S1, .i32⟩
  | 93 => ⟨S_, .i32⟩
  | 94 => ⟨S1, .i32⟩
  | 95 => ⟨S2, .i32⟩
  | 96 => ⟨S2x3x1024x1024, .f32⟩
  | 97 => ⟨S2x3x256x256, .f32⟩
  | 98 => ⟨S1x2x3x256x256, .f32⟩
  | 99 => ⟨S2x3x256x256, .f32⟩
  | 100 => ⟨S2x3x256x256, .f32⟩
  | 101 => ⟨S_, .i32⟩
  | 102 => ⟨S1, .i32⟩
  | 103 => ⟨S_, .i32⟩
  | 104 => ⟨S1, .i32⟩
  | 105 => ⟨S2, .i32⟩
  | 106 => ⟨S2x3x1024x1024, .f32⟩
  | 107 => ⟨S2x3x256x256, .f32⟩
  | 108 => ⟨S1x2x3x256x256, .f32⟩
  | 109 => ⟨S2x3x256x256, .f32⟩
  | 110 => ⟨S2x3x256x256, .f32⟩
  | 111 => ⟨S_, .i32⟩
  | 112 => ⟨S1, .i32⟩
  | 113 => ⟨S_, .i32⟩
  | 114 => ⟨S1, .i32⟩
  | 115 => ⟨S2, .i32⟩
  | 116 => ⟨S2x3x1024x1024, .f32⟩
  | 117 => ⟨S2x3x256x256, .f32⟩
  | 118 => ⟨S1x2x3x256x256, .f32⟩
  | 119 => ⟨S2x3x256x256, .f32⟩
  | 120 => ⟨S2x3x256x256, .f32⟩
  | 121 => ⟨S_, .i32⟩
  | 122 => ⟨S1, .i32⟩
  | 123 => ⟨S_, .i32⟩
  | 124 => ⟨S1, .i32⟩
  | 125 => ⟨S2, .i32⟩
  | 126 => ⟨S2x3x1024x1024, .f32⟩
  | 127 => ⟨S2x3x256x256, .f32⟩
  | _ => ⟨S49x2x3x256x256, .f32⟩

abbrev hbmTy0_3 (i : Nat) : BufTy := match i % 128 with
  | 0 => ⟨S1x2x3x256x256, .f32⟩
  | 1 => ⟨S2x3x256x256, .f32⟩
  | 2 => ⟨S2x3x256x256, .f32⟩
  | 3 => ⟨S_, .i32⟩
  | 4 => ⟨S1, .i32⟩
  | 5 => ⟨S_, .i32⟩
  | 6 => ⟨S1, .i32⟩
  | 7 => ⟨S2, .i32⟩
  | 8 => ⟨S2x3x1024x1024, .f32⟩
  | 9 => ⟨S2x3x256x256, .f32⟩
  | 10 => ⟨S1x2x3x256x256, .f32⟩
  | 11 => ⟨S2x3x256x256, .f32⟩
  | 12 => ⟨S2x3x256x256, .f32⟩
  | 13 => ⟨S_, .i32⟩
  | 14 => ⟨S1, .i32⟩
  | 15 => ⟨S_, .i32⟩
  | 16 => ⟨S1, .i32⟩
  | 17 => ⟨S2, .i32⟩
  | 18 => ⟨S2x3x1024x1024, .f32⟩
  | 19 => ⟨S2x3x256x256, .f32⟩
  | 20 => ⟨S1x2x3x256x256, .f32⟩
  | 21 => ⟨S2x3x256x256, .f32⟩
  | 22 => ⟨S2x3x256x256, .f32⟩
  | 23 => ⟨S_, .i32⟩
  | 24 => ⟨S1, .i32⟩
  | 25 => ⟨S_, .i32⟩
  | 26 => ⟨S1, .i32⟩
  | 27 => ⟨S2, .i32⟩
  | 28 => ⟨S2x3x1024x1024, .f32⟩
  | 29 => ⟨S2x3x256x256, .f32⟩
  | 30 => ⟨S1x2x3x256x256, .f32⟩
  | 31 => ⟨S2x3x256x256, .f32⟩
  | 32 => ⟨S2x3x256x256, .f32⟩
  | 33 => ⟨S_, .i32⟩
  | 34 => ⟨S1, .i32⟩
  | 35 => ⟨S_, .i32⟩
  | 36 => ⟨S1, .i32⟩
  | 37 => ⟨S2, .i32⟩
  | 38 => ⟨S2x3x1024x1024, .f32⟩
  | 39 => ⟨S2x3x256x256, .f32⟩
  | 40 => ⟨S1x2x3x256x256, .f32⟩
  | 41 => ⟨S2x3x256x256, .f32⟩
  | 42 => ⟨S2x3x256x256, .f32⟩
  | 43 => ⟨S_, .i32⟩
  | 44 => ⟨S1, .i32⟩
  | 45 => ⟨S_, .i32⟩
  | 46 => ⟨S1, .i32⟩
  | 47 => ⟨S2, .i32⟩
  | 48 => ⟨S2x3x1024x1024, .f32⟩
  | 49 => ⟨S2x3x256x256, .f32⟩
  | 50 => ⟨S1x2x3x256x256, .f32⟩
  | 51 => ⟨S2x3x256x256, .f32⟩
  | 52 => ⟨S2x3x256x256, .f32⟩
  | 53 => ⟨S_, .i32⟩
  | 54 => ⟨S1, .i32⟩
  | 55 => ⟨S_, .i32⟩
  | 56 => ⟨S1, .i32⟩
  | 57 => ⟨S2, .i32⟩
  | 58 => ⟨S2x3x1024x1024, .f32⟩
  | 59 => ⟨S2x3x256x256, .f32⟩
  | 60 => ⟨S1x2x3x256x256, .f32⟩
  | 61 => ⟨S2x3x256x256, .f32⟩
  | 62 => ⟨S2x3x256x256, .f32⟩
  | 63 => ⟨S_, .i32⟩
  | 64 => ⟨S1, .i32⟩
  | 65 => ⟨S_, .i32⟩
  | 66 => ⟨S1, .i32⟩
  | 67 => ⟨S2, .i32⟩
  | 68 => ⟨S2x3x1024x1024, .f32⟩
  | 69 => ⟨S2x3x256x256, .f32⟩
  | 70 => ⟨S1x2x3x256x256, .f32⟩
  | 71 => ⟨S2x3x256x256, .f32⟩
  | 72 => ⟨S2x3x256x256, .f32⟩
  | 73 => ⟨S_, .i32⟩
  | 74 => ⟨S1, .i32⟩
  | 75 => ⟨S_, .i32⟩
  | 76 => ⟨S1, .i32⟩
  | 77 => ⟨S2, .i32⟩
  | 78 => ⟨S2x3x1024x1024, .f32⟩
  | 79 => ⟨S2x3x256x256, .f32⟩
  | 80 => ⟨S1x2x3x256x256, .f32⟩
  | 81 => ⟨S2x3x256x256, .f32⟩
  | 82 => ⟨S2x3x256x256, .f32⟩
  | 83 => ⟨S_, .i32⟩
  | 84 => ⟨S1, .i32⟩
  | 85 => ⟨S_, .i32⟩
  | 86 => ⟨S1, .i32⟩
  | 87 => ⟨S2, .i32⟩
  | 88 => ⟨S2x3x1024x1024, .f32⟩
  | 89 => ⟨S2x3x256x256, .f32⟩
  | 90 => ⟨S1x2x3x256x256, .f32⟩
  | 91 => ⟨S2x3x256x256, .f32⟩
  | 92 => ⟨S2x3x256x256, .f32⟩
  | 93 => ⟨S_, .i32⟩
  | 94 => ⟨S1, .i32⟩
  | 95 => ⟨S_, .i32⟩
  | 96 => ⟨S1, .i32⟩
  | 97 => ⟨S2, .i32⟩
  | 98 => ⟨S2x3x1024x1024, .f32⟩
  | 99 => ⟨S2x3x256x256, .f32⟩
  | 100 => ⟨S1x2x3x256x256, .f32⟩
  | 101 => ⟨S2x3x256x256, .f32⟩
  | 102 => ⟨S2x3x256x256, .f32⟩
  | 103 => ⟨S_, .i32⟩
  | 104 => ⟨S1, .i32⟩
  | 105 => ⟨S_, .i32⟩
  | 106 => ⟨S1, .i32⟩
  | 107 => ⟨S2, .i32⟩
  | 108 => ⟨S2x3x1024x1024, .f32⟩
  | _ => ⟨S49x2x3x256x256, .f32⟩

abbrev hbmTy (i : Nat) : BufTy := match i / 128 with
  | 0 => hbmTy0_0 i
  | 1 => hbmTy0_1 i
  | 2 => hbmTy0_2 i
  | 3 => hbmTy0_3 i
  | _ => ⟨S49x2x3x256x256, .f32⟩

abbrev bufTy : (tb : Table) → Fin (tcTables nBuf tb) → BufTy
  | .hbm, ⟨i, _⟩ => hbmTy i
  | _, _ => ⟨S49x2x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_5 : Ref sig .tc := ⟨.hbm, 37, rfl⟩
abbrev main_v29 : Ref sig .tc := ⟨.hbm, 38, rfl⟩
abbrev main_c_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_7 : Ref sig .tc := ⟨.hbm, 47, rfl⟩
abbrev main_v37 : Ref sig .tc := ⟨.hbm, 48, rfl⟩
abbrev main_c_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_9 : Ref sig .tc := ⟨.hbm, 57, rfl⟩
abbrev main_v45 : Ref sig .tc := ⟨.hbm, 58, rfl⟩
abbrev main_c_10 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_11 : Ref sig .tc := ⟨.hbm, 67, rfl⟩
abbrev main_v53 : Ref sig .tc := ⟨.hbm, 68, rfl⟩
abbrev main_c_12 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_13 : Ref sig .tc := ⟨.hbm, 77, rfl⟩
abbrev main_v61 : Ref sig .tc := ⟨.hbm, 78, rfl⟩
abbrev main_c_14 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_15 : Ref sig .tc := ⟨.hbm, 87, rfl⟩
abbrev main_v69 : Ref sig .tc := ⟨.hbm, 88, rfl⟩
abbrev main_c_16 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_c_17 : Ref sig .tc := ⟨.hbm, 97, rfl⟩
abbrev main_v77 : Ref sig .tc := ⟨.hbm, 98, rfl⟩
abbrev main_c_18 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_19 : Ref sig .tc := ⟨.hbm, 107, rfl⟩
abbrev main_v85 : Ref sig .tc := ⟨.hbm, 108, rfl⟩
abbrev main_c_20 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_c_21 : Ref sig .tc := ⟨.hbm, 117, rfl⟩
abbrev main_v93 : Ref sig .tc := ⟨.hbm, 118, rfl⟩
abbrev main_c_22 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_c_23 : Ref sig .tc := ⟨.hbm, 127, rfl⟩
abbrev main_v101 : Ref sig .tc := ⟨.hbm, 128, rfl⟩
abbrev main_c_24 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_c_25 : Ref sig .tc := ⟨.hbm, 137, rfl⟩
abbrev main_v109 : Ref sig .tc := ⟨.hbm, 138, rfl⟩
abbrev main_c_26 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_c_27 : Ref sig .tc := ⟨.hbm, 147, rfl⟩
abbrev main_v117 : Ref sig .tc := ⟨.hbm, 148, rfl⟩
abbrev main_c_28 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_c_29 : Ref sig .tc := ⟨.hbm, 157, rfl⟩
abbrev main_v125 : Ref sig .tc := ⟨.hbm, 158, rfl⟩
abbrev main_c_30 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_c_31 : Ref sig .tc := ⟨.hbm, 167, rfl⟩
abbrev main_v133 : Ref sig .tc := ⟨.hbm, 168, rfl⟩
abbrev main_c_32 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_c_33 : Ref sig .tc := ⟨.hbm, 177, rfl⟩
abbrev main_v141 : Ref sig .tc := ⟨.hbm, 178, rfl⟩
abbrev main_c_34 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_c_35 : Ref sig .tc := ⟨.hbm, 187, rfl⟩
abbrev main_v149 : Ref sig .tc := ⟨.hbm, 188, rfl⟩
abbrev main_c_36 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_c_37 : Ref sig .tc := ⟨.hbm, 197, rfl⟩
abbrev main_v157 : Ref sig .tc := ⟨.hbm, 198, rfl⟩
abbrev main_c_38 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_c_39 : Ref sig .tc := ⟨.hbm, 207, rfl⟩
abbrev main_v165 : Ref sig .tc := ⟨.hbm, 208, rfl⟩
abbrev main_c_40 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_c_41 : Ref sig .tc := ⟨.hbm, 217, rfl⟩
abbrev main_v173 : Ref sig .tc := ⟨.hbm, 218, rfl⟩
abbrev main_c_42 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_c_43 : Ref sig .tc := ⟨.hbm, 227, rfl⟩
abbrev main_v181 : Ref sig .tc := ⟨.hbm, 228, rfl⟩
abbrev main_c_44 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_c_45 : Ref sig .tc := ⟨.hbm, 237, rfl⟩
abbrev main_v189 : Ref sig .tc := ⟨.hbm, 238, rfl⟩
abbrev main_c_46 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_c_47 : Ref sig .tc := ⟨.hbm, 247, rfl⟩
abbrev main_v197 : Ref sig .tc := ⟨.hbm, 248, rfl⟩
abbrev main_c_48 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_c_49 : Ref sig .tc := ⟨.hbm, 257, rfl⟩
abbrev main_v205 : Ref sig .tc := ⟨.hbm, 258, rfl⟩
abbrev main_c_50 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_c_51 : Ref sig .tc := ⟨.hbm, 267, rfl⟩
abbrev main_v213 : Ref sig .tc := ⟨.hbm, 268, rfl⟩
abbrev main_c_52 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_c_53 : Ref sig .tc := ⟨.hbm, 277, rfl⟩
abbrev main_v221 : Ref sig .tc := ⟨.hbm, 278, rfl⟩
abbrev main_c_54 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_c_55 : Ref sig .tc := ⟨.hbm, 287, rfl⟩
abbrev main_v229 : Ref sig .tc := ⟨.hbm, 288, rfl⟩
abbrev main_c_56 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_c_57 : Ref sig .tc := ⟨.hbm, 297, rfl⟩
abbrev main_v237 : Ref sig .tc := ⟨.hbm, 298, rfl⟩
abbrev main_c_58 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_c_59 : Ref sig .tc := ⟨.hbm, 307, rfl⟩
abbrev main_v245 : Ref sig .tc := ⟨.hbm, 308, rfl⟩
abbrev main_c_60 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_c_61 : Ref sig .tc := ⟨.hbm, 317, rfl⟩
abbrev main_v253 : Ref sig .tc := ⟨.hbm, 318, rfl⟩
abbrev main_c_62 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_c_63 : Ref sig .tc := ⟨.hbm, 327, rfl⟩
abbrev main_v261 : Ref sig .tc := ⟨.hbm, 328, rfl⟩
abbrev main_c_64 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_c_65 : Ref sig .tc := ⟨.hbm, 337, rfl⟩
abbrev main_v269 : Ref sig .tc := ⟨.hbm, 338, rfl⟩
abbrev main_c_66 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_c_67 : Ref sig .tc := ⟨.hbm, 347, rfl⟩
abbrev main_v277 : Ref sig .tc := ⟨.hbm, 348, rfl⟩
abbrev main_c_68 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_c_69 : Ref sig .tc := ⟨.hbm, 357, rfl⟩
abbrev main_v285 : Ref sig .tc := ⟨.hbm, 358, rfl⟩
abbrev main_c_70 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩
abbrev main_v292 : Ref sig .tc := ⟨.hbm, 366, rfl⟩
abbrev main_c_71 : Ref sig .tc := ⟨.hbm, 367, rfl⟩
abbrev main_v293 : Ref sig .tc := ⟨.hbm, 368, rfl⟩
abbrev main_c_72 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_c_73 : Ref sig .tc := ⟨.hbm, 377, rfl⟩
abbrev main_v301 : Ref sig .tc := ⟨.hbm, 378, rfl⟩
abbrev main_c_74 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_c_75 : Ref sig .tc := ⟨.hbm, 387, rfl⟩
abbrev main_v309 : Ref sig .tc := ⟨.hbm, 388, rfl⟩
abbrev main_c_76 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_c_77 : Ref sig .tc := ⟨.hbm, 397, rfl⟩
abbrev main_v317 : Ref sig .tc := ⟨.hbm, 398, rfl⟩
abbrev main_c_78 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_v324 : Ref sig .tc := ⟨.hbm, 406, rfl⟩
abbrev main_c_79 : Ref sig .tc := ⟨.hbm, 407, rfl⟩
abbrev main_v325 : Ref sig .tc := ⟨.hbm, 408, rfl⟩
abbrev main_c_80 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_c_81 : Ref sig .tc := ⟨.hbm, 417, rfl⟩
abbrev main_v333 : Ref sig .tc := ⟨.hbm, 418, rfl⟩
abbrev main_c_82 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_c_83 : Ref sig .tc := ⟨.hbm, 427, rfl⟩
abbrev main_v341 : Ref sig .tc := ⟨.hbm, 428, rfl⟩
abbrev main_c_84 : Ref sig .tc := ⟨.hbm, 429, rfl⟩
abbrev main_v342 : Ref sig .tc := ⟨.hbm, 430, rfl⟩
abbrev main_v343 : Ref sig .tc := ⟨.hbm, 431, rfl⟩
abbrev main_v344 : Ref sig .tc := ⟨.hbm, 432, rfl⟩
abbrev main_v345 : Ref sig .tc := ⟨.hbm, 433, rfl⟩
abbrev main_v346 : Ref sig .tc := ⟨.hbm, 434, rfl⟩
abbrev main_v347 : Ref sig .tc := ⟨.hbm, 435, rfl⟩
abbrev main_v348 : Ref sig .tc := ⟨.hbm, 436, rfl⟩
abbrev main_c_85 : Ref sig .tc := ⟨.hbm, 437, rfl⟩
abbrev main_v349 : Ref sig .tc := ⟨.hbm, 438, rfl⟩
abbrev main_c_86 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_v353 : Ref sig .tc := ⟨.hbm, 443, rfl⟩
abbrev main_v354 : Ref sig .tc := ⟨.hbm, 444, rfl⟩
abbrev main_v355 : Ref sig .tc := ⟨.hbm, 445, rfl⟩
abbrev main_v356 : Ref sig .tc := ⟨.hbm, 446, rfl⟩
abbrev main_c_87 : Ref sig .tc := ⟨.hbm, 447, rfl⟩
abbrev main_v357 : Ref sig .tc := ⟨.hbm, 448, rfl⟩
abbrev main_c_88 : Ref sig .tc := ⟨.hbm, 449, rfl⟩
abbrev main_v358 : Ref sig .tc := ⟨.hbm, 450, rfl⟩
abbrev main_v359 : Ref sig .tc := ⟨.hbm, 451, rfl⟩
abbrev main_v360 : Ref sig .tc := ⟨.hbm, 452, rfl⟩
abbrev main_v361 : Ref sig .tc := ⟨.hbm, 453, rfl⟩
abbrev main_v362 : Ref sig .tc := ⟨.hbm, 454, rfl⟩
abbrev main_v363 : Ref sig .tc := ⟨.hbm, 455, rfl⟩
abbrev main_v364 : Ref sig .tc := ⟨.hbm, 456, rfl⟩
abbrev main_c_89 : Ref sig .tc := ⟨.hbm, 457, rfl⟩
abbrev main_v365 : Ref sig .tc := ⟨.hbm, 458, rfl⟩
abbrev main_c_90 : Ref sig .tc := ⟨.hbm, 459, rfl⟩
abbrev main_v366 : Ref sig .tc := ⟨.hbm, 460, rfl⟩
abbrev main_v367 : Ref sig .tc := ⟨.hbm, 461, rfl⟩
abbrev main_v368 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_v372 : Ref sig .tc := ⟨.hbm, 466, rfl⟩
abbrev main_c_91 : Ref sig .tc := ⟨.hbm, 467, rfl⟩
abbrev main_v373 : Ref sig .tc := ⟨.hbm, 468, rfl⟩
abbrev main_c_92 : Ref sig .tc := ⟨.hbm, 469, rfl⟩
abbrev main_v374 : Ref sig .tc := ⟨.hbm, 470, rfl⟩
abbrev main_v375 : Ref sig .tc := ⟨.hbm, 471, rfl⟩
abbrev main_v376 : Ref sig .tc := ⟨.hbm, 472, rfl⟩
abbrev main_v377 : Ref sig .tc := ⟨.hbm, 473, rfl⟩
abbrev main_v378 : Ref sig .tc := ⟨.hbm, 474, rfl⟩
abbrev main_v379 : Ref sig .tc := ⟨.hbm, 475, rfl⟩
abbrev main_v380 : Ref sig .tc := ⟨.hbm, 476, rfl⟩
abbrev main_c_93 : Ref sig .tc := ⟨.hbm, 477, rfl⟩
abbrev main_v381 : Ref sig .tc := ⟨.hbm, 478, rfl⟩
abbrev main_c_94 : Ref sig .tc := ⟨.hbm, 479, rfl⟩
abbrev main_v382 : Ref sig .tc := ⟨.hbm, 480, rfl⟩
abbrev main_v383 : Ref sig .tc := ⟨.hbm, 481, rfl⟩
abbrev main_v384 : Ref sig .tc := ⟨.hbm, 482, rfl⟩
abbrev main_v385 : Ref sig .tc := ⟨.hbm, 483, rfl⟩
abbrev main_v386 : Ref sig .tc := ⟨.hbm, 484, rfl⟩
abbrev main_v387 : Ref sig .tc := ⟨.hbm, 485, rfl⟩
abbrev main_v388 : Ref sig .tc := ⟨.hbm, 486, rfl⟩
abbrev main_c_95 : Ref sig .tc := ⟨.hbm, 487, rfl⟩
abbrev main_v389 : Ref sig .tc := ⟨.hbm, 488, rfl⟩
abbrev main_c_96 : Ref sig .tc := ⟨.hbm, 489, rfl⟩
abbrev main_v390 : Ref sig .tc := ⟨.hbm, 490, rfl⟩
abbrev main_v391 : Ref sig .tc := ⟨.hbm, 491, rfl⟩
abbrev main_v392 : Ref sig .tc := ⟨.hbm, 492, rfl⟩

abbrev nD : Nat := 1
abbrev τ : Topo := Topo.v7x

variable {F : FTy → Type} [FloatOps F]

class Facts₀ : Prop where
  bcast_S_S2x3x1024x1024 : S_.BroadcastsInDim S2x3x1024x1024 (![] : Fin 0 → Fin S2x3x1024x1024.rank)
  slices_S2x3x1024x1024_S2x3x256x256_0_0_0_0 : S2x3x1024x1024.Slices ![0, 0, 0, 0] S2x3x256x256
  slices_S49x2x3x256x256_S1x2x3x256x256_0_0_0_0_0 : S49x2x3x256x256.Slices ![0, 0, 0, 0, 0] S1x2x3x256x256
  shapeCasts_S1x2x3x256x256_S2x3x256x256 : S1x2x3x256x256.ShapeCasts S2x3x256x256
  bcast_S_S1 : S_.BroadcastsInDim S1 (![] : Fin 0 → Fin S1.rank)
  concatenates_S1_S1_S2_d0 : Shape.Concatenates [S1, S1] S2 0
  slices_S2x3x1024x1024_S2x3x256x256_0_0_0_128 : S2x3x1024x1024.Slices ![0, 0, 0, 128] S2x3x256x256
  slices_S49x2x3x256x256_S1x2x3x256x256_1_0_0_0_0 : S49x2x3x256x256.Slices ![1, 0, 0, 0, 0] S1x2x3x256x256
  slices_S2x3x1024x1024_S2x3x256x256_0_0_0_256 : S2x3x1024x1024.Slices ![0, 0, 0, 256] S2x3x256x256
  slices_S49x2x3x256x256_S1x2x3x256x256_2_0_0_0_0 : S49x2x3x256x256.Slices ![2, 0, 0, 0, 0] S1x2x3x256x256
  slices_S2x3x1024x1024_S2x3x256x256_0_0_0_384 : S2x3x1024x1024.Slices ![0, 0, 0, 384] S2x3x256x256
  slices_S49x2x3x256x256_S1x2x3x256x256_3_0_0_0_0 : S49x2x3x256x256.Slices ![3, 0, 0, 0, 0] S1x2x3x256x256
  slices_S2x3x1024x1024_S2x3x256x256_0_0_0_512 : S2x3x1024x1024.Slices ![0, 0, 0, 512] S2x3x256x256
  slices_S49x2x3x256x256_S1x2x3x256x256_4_0_0_0_0 : S49x2x3x256x256.Slices ![4, 0, 0, 0, 0] S1x2x3x256x256
  slices_S2x3x1024x1024_S2x3x256x256_0_0_0_640 : S2x3x1024x1024.Slices ![0, 0, 0, 640] S2x3x256x256
  slices_S49x2x3x256x256_S1x2x3x256x256_5_0_0_0_0 : S49x2x3x256x256.Slices ![5, 0, 0, 0, 0] S1x2x3x256x256
  slices_S2x3x1024x1024_S2x3x256x256_0_0_0_768 : S2x3x1024x1024.Slices ![0, 0, 0, 768] S2x3x256x256
  slices_S49x2x3x256x256_S1x2x3x256x256_6_0_0_0_0 : S49x2x3x256x256.Slices ![6, 0, 0, 0, 0] S1x2x3x256x256
  slices_S2x3x1024x1024_S2x3x256x256_0_0_128_0 : S2x3x1024x1024.Slices ![0, 0, 128, 0] S2x3x256x256
  slices_S49x2x3x256x256_S1x2x3x256x256_7_0_0_0_0 : S49x2x3x256x256.Slices ![7, 0, 0, 0, 0] S1x2x3x256x256
  slices_S2x3x1024x1024_S2x3x256x256_0_0_128_128 : S2x3x1024x1024.Slices ![0, 0, 128, 128] S2x3x256x256
  slices_S49x2x3x256x256_S1x2x3x256x256_8_0_0_0_0 : S49x2x3x256x256.Slices ![8, 0, 0, 0, 0] S1x2x3x256x256
  slices_S2x3x1024x1024_S2x3x256x256_0_0_128_256 : S2x3x1024x1024.Slices ![0, 0, 128, 256] S2x3x256x256
  slices_S49x2x3x256x256_S1x2x3x256x256_9_0_0_0_0 : S49x2x3x256x256.Slices ![9, 0, 0, 0, 0] S1x2x3x256x256
  slices_S2x3x1024x1024_S2x3x256x256_0_0_128_384 : S2x3x1024x1024.Slices ![0, 0, 128, 384] S2x3x256x256
  slices_S49x2x3x256x256_S1x2x3x256x256_10_0_0_0_0 : S49x2x3x256x256.Slices ![10, 0, 0, 0, 0] S1x2x3x256x256
  slices_S2x3x1024x1024_S2x3x256x256_0_0_128_512 : S2x3x1024x1024.Slices ![0, 0, 128, 512] S2x3x256x256
  slices_S49x2x3x256x256_S1x2x3x256x256_11_0_0_0_0 : S49x2x3x256x256.Slices ![11, 0, 0, 0, 0] S1x2x3x256x256
  slices_S2x3x1024x1024_S2x3x256x256_0_0_128_640 : S2x3x1024x1024.Slices ![0, 0, 128, 640] S2x3x256x256
  slices_S49x2x3x256x256_S1x2x3x256x256_12_0_0_0_0 : S49x2x3x256x256.Slices ![12, 0, 0, 0, 0] S1x2x3x256x256
  slices_S2x3x1024x1024_S2x3x256x256_0_0_128_768 : S2x3x1024x1024.Slices ![0, 0, 128, 768] S2x3x256x256
  slices_S49x2x3x256x256_S1x2x3x256x256_13_0_0_0_0 : S49x2x3x256x256.Slices ![13, 0, 0, 0, 0] S1x2x3x256x256
  slices_S2x3x1024x1024_S2x3x256x256_0_0_256_0 : S2x3x1024x1024.Slices ![0, 0, 256, 0] S2x3x256x256
  slices_S49x2x3x256x256_S1x2x3x256x256_14_0_0_0_0 : S49x2x3x256x256.Slices ![14, 0, 0, 0, 0] S1x2x3x256x256
  slices_S2x3x1024x1024_S2x3x256x256_0_0_256_128 : S2x3x1024x1024.Slices ![0, 0, 256, 128] S2x3x256x256
  slices_S49x2x3x256x256_S1x2x3x256x256_15_0_0_0_0 : S49x2x3x256x256.Slices ![15, 0, 0, 0, 0] S1x2x3x256x256
  slices_S2x3x1024x1024_S2x3x256x256_0_0_256_256 : S2x3x1024x1024.Slices ![0, 0, 256, 256] S2x3x256x256
  slices_S49x2x3x256x256_S1x2x3x256x256_16_0_0_0_0 : S49x2x3x256x256.Slices ![16, 0, 0, 0, 0] S1x2x3x256x256
  slices_S2x3x1024x1024_S2x3x256x256_0_0_256_384 : S2x3x1024x1024.Slices ![0, 0, 256, 384] S2x3x256x256
  slices_S49x2x3x256x256_S1x2x3x256x256_17_0_0_0_0 : S49x2x3x256x256.Slices ![17, 0, 0, 0, 0] S1x2x3x256x256
  slices_S2x3x1024x1024_S2x3x256x256_0_0_256_512 : S2x3x1024x1024.Slices ![0, 0, 256, 512] S2x3x256x256
  slices_S49x2x3x256x256_S1x2x3x256x256_18_0_0_0_0 : S49x2x3x256x256.Slices ![18, 0, 0, 0, 0] S1x2x3x256x256
  slices_S2x3x1024x1024_S2x3x256x256_0_0_256_640 : S2x3x1024x1024.Slices ![0, 0, 256, 640] S2x3x256x256
  slices_S49x2x3x256x256_S1x2x3x256x256_19_0_0_0_0 : S49x2x3x256x256.Slices ![19, 0, 0, 0, 0] S1x2x3x256x256
  slices_S2x3x1024x1024_S2x3x256x256_0_0_256_768 : S2x3x1024x1024.Slices ![0, 0, 256, 768] S2x3x256x256
  slices_S49x2x3x256x256_S1x2x3x256x256_20_0_0_0_0 : S49x2x3x256x256.Slices ![20, 0, 0, 0, 0] S1x2x3x256x256
  slices_S2x3x1024x1024_S2x3x256x256_0_0_384_0 : S2x3x1024x1024.Slices ![0, 0, 384, 0] S2x3x256x256
  slices_S49x2x3x256x256_S1x2x3x256x256_21_0_0_0_0 : S49x2x3x256x256.Slices ![21, 0, 0, 0, 0] S1x2x3x256x256
  slices_S2x3x1024x1024_S2x3x256x256_0_0_384_128 : S2x3x1024x1024.Slices ![0, 0, 384, 128] S2x3x256x256
  slices_S49x2x3x256x256_S1x2x3x256x256_22_0_0_0_0 : S49x2x3x256x256.Slices ![22, 0, 0, 0, 0] S1x2x3x256x256
  slices_S2x3x1024x1024_S2x3x256x256_0_0_384_256 : S2x3x1024x1024.Slices ![0, 0, 384, 256] S2x3x256x256
  slices_S49x2x3x256x256_S1x2x3x256x256_23_0_0_0_0 : S49x2x3x256x256.Slices ![23, 0, 0, 0, 0] S1x2x3x256x256
  slices_S2x3x1024x1024_S2x3x256x256_0_0_384_384 : S2x3x1024x1024.Slices ![0, 0, 384, 384] S2x3x256x256
  slices_S49x2x3x256x256_S1x2x3x256x256_24_0_0_0_0 : S49x2x3x256x256.Slices ![24, 0, 0, 0, 0] S1x2x3x256x256
  slices_S2x3x1024x1024_S2x3x256x256_0_0_384_512 : S2x3x1024x1024.Slices ![0, 0, 384, 512] S2x3x256x256
  slices_S49x2x3x256x256_S1x2x3x256x256_25_0_0_0_0 : S49x2x3x256x256.Slices ![25, 0, 0, 0, 0] S1x2x3x256x256
  slices_S2x3x1024x1024_S2x3x256x256_0_0_384_640 : S2x3x1024x1024.Slices ![0, 0, 384, 640] S2x3x256x256
  slices_S49x2x3x256x256_S1x2x3x256x256_26_0_0_0_0 : S49x2x3x256x256.Slices ![26, 0, 0, 0, 0] S1x2x3x256x256
  slices_S2x3x1024x1024_S2x3x256x256_0_0_384_768 : S2x3x1024x1024.Slices ![0, 0, 384, 768] S2x3x256x256
  slices_S49x2x3x256x256_S1x2x3x256x256_27_0_0_0_0 : S49x2x3x256x256.Slices ![27, 0, 0, 0, 0] S1x2x3x256x256
  slices_S2x3x1024x1024_S2x3x256x256_0_0_512_0 : S2x3x1024x1024.Slices ![0, 0, 512, 0] S2x3x256x256
  slices_S49x2x3x256x256_S1x2x3x256x256_28_0_0_0_0 : S49x2x3x256x256.Slices ![28, 0, 0, 0, 0] S1x2x3x256x256
  slices_S2x3x1024x1024_S2x3x256x256_0_0_512_128 : S2x3x1024x1024.Slices ![0, 0, 512, 128] S2x3x256x256
  slices_S49x2x3x256x256_S1x2x3x256x256_29_0_0_0_0 : S49x2x3x256x256.Slices ![29, 0, 0, 0, 0] S1x2x3x256x256
  slices_S2x3x1024x1024_S2x3x256x256_0_0_512_256 : S2x3x1024x1024.Slices ![0, 0, 512, 256] S2x3x256x256
  slices_S49x2x3x256x256_S1x2x3x256x256_30_0_0_0_0 : S49x2x3x256x256.Slices ![30, 0, 0, 0, 0] S1x2x3x256x256
  slices_S2x3x1024x1024_S2x3x256x256_0_0_512_384 : S2x3x1024x1024.Slices ![0, 0, 512, 384] S2x3x256x256
  slices_S49x2x3x256x256_S1x2x3x256x256_31_0_0_0_0 : S49x2x3x256x256.Slices ![31, 0, 0, 0, 0] S1x2x3x256x256
  slices_S2x3x1024x1024_S2x3x256x256_0_0_512_512 : S2x3x1024x1024.Slices ![0, 0, 512, 512] S2x3x256x256
  slices_S49x2x3x256x256_S1x2x3x256x256_32_0_0_0_0 : S49x2x3x256x256.Slices ![32, 0, 0, 0, 0] S1x2x3x256x256
  slices_S2x3x1024x1024_S2x3x256x256_0_0_512_640 : S2x3x1024x1024.Slices ![0, 0, 512, 640] S2x3x256x256
  slices_S49x2x3x256x256_S1x2x3x256x256_33_0_0_0_0 : S49x2x3x256x256.Slices ![33, 0, 0, 0, 0] S1x2x3x256x256
  slices_S2x3x1024x1024_S2x3x256x256_0_0_512_768 : S2x3x1024x1024.Slices ![0, 0, 512, 768] S2x3x256x256
  slices_S49x2x3x256x256_S1x2x3x256x256_34_0_0_0_0 : S49x2x3x256x256.Slices ![34, 0, 0, 0, 0] S1x2x3x256x256
  slices_S2x3x1024x1024_S2x3x256x256_0_0_640_0 : S2x3x1024x1024.Slices ![0, 0, 640, 0] S2x3x256x256
  slices_S49x2x3x256x256_S1x2x3x256x256_35_0_0_0_0 : S49x2x3x256x256.Slices ![35, 0, 0, 0, 0] S1x2x3x256x256
  slices_S2x3x1024x1024_S2x3x256x256_0_0_640_128 : S2x3x1024x1024.Slices ![0, 0, 640, 128] S2x3x256x256
  slices_S49x2x3x256x256_S1x2x3x256x256_36_0_0_0_0 : S49x2x3x256x256.Slices ![36, 0, 0, 0, 0] S1x2x3x256x256
  slices_S2x3x1024x1024_S2x3x256x256_0_0_640_256 : S2x3x1024x1024.Slices ![0, 0, 640, 256] S2x3x256x256
  slices_S49x2x3x256x256_S1x2x3x256x256_37_0_0_0_0 : S49x2x3x256x256.Slices ![37, 0, 0, 0, 0] S1x2x3x256x256
  slices_S2x3x1024x1024_S2x3x256x256_0_0_640_384 : S2x3x1024x1024.Slices ![0, 0, 640, 384] S2x3x256x256
  slices_S49x2x3x256x256_S1x2x3x256x256_38_0_0_0_0 : S49x2x3x256x256.Slices ![38, 0, 0, 0, 0] S1x2x3x256x256
  slices_S2x3x1024x1024_S2x3x256x256_0_0_640_512 : S2x3x1024x1024.Slices ![0, 0, 640, 512] S2x3x256x256
  slices_S49x2x3x256x256_S1x2x3x256x256_39_0_0_0_0 : S49x2x3x256x256.Slices ![39, 0, 0, 0, 0] S1x2x3x256x256
  slices_S2x3x1024x1024_S2x3x256x256_0_0_640_640 : S2x3x1024x1024.Slices ![0, 0, 640, 640] S2x3x256x256
  slices_S49x2x3x256x256_S1x2x3x256x256_40_0_0_0_0 : S49x2x3x256x256.Slices ![40, 0, 0, 0, 0] S1x2x3x256x256
  slices_S2x3x1024x1024_S2x3x256x256_0_0_640_768 : S2x3x1024x1024.Slices ![0, 0, 640, 768] S2x3x256x256
  slices_S49x2x3x256x256_S1x2x3x256x256_41_0_0_0_0 : S49x2x3x256x256.Slices ![41, 0, 0, 0, 0] S1x2x3x256x256
  slices_S2x3x1024x1024_S2x3x256x256_0_0_768_0 : S2x3x1024x1024.Slices ![0, 0, 768, 0] S2x3x256x256
  slices_S49x2x3x256x256_S1x2x3x256x256_42_0_0_0_0 : S49x2x3x256x256.Slices ![42, 0, 0, 0, 0] S1x2x3x256x256
  slices_S2x3x1024x1024_S2x3x256x256_0_0_768_128 : S2x3x1024x1024.Slices ![0, 0, 768, 128] S2x3x256x256
  slices_S49x2x3x256x256_S1x2x3x256x256_43_0_0_0_0 : S49x2x3x256x256.Slices ![43, 0, 0, 0, 0] S1x2x3x256x256
  slices_S2x3x1024x1024_S2x3x256x256_0_0_768_256 : S2x3x1024x1024.Slices ![0, 0, 768, 256] S2x3x256x256
  slices_S49x2x3x256x256_S1x2x3x256x256_44_0_0_0_0 : S49x2x3x256x256.Slices ![44, 0, 0, 0, 0] S1x2x3x256x256
  slices_S2x3x1024x1024_S2x3x256x256_0_0_768_384 : S2x3x1024x1024.Slices ![0, 0, 768, 384] S2x3x256x256
  slices_S49x2x3x256x256_S1x2x3x256x256_45_0_0_0_0 : S49x2x3x256x256.Slices ![45, 0, 0, 0, 0] S1x2x3x256x256
  slices_S2x3x1024x1024_S2x3x256x256_0_0_768_512 : S2x3x1024x1024.Slices ![0, 0, 768, 512] S2x3x256x256
  slices_S49x2x3x256x256_S1x2x3x256x256_46_0_0_0_0 : S49x2x3x256x256.Slices ![46, 0, 0, 0, 0] S1x2x3x256x256
  slices_S2x3x1024x1024_S2x3x256x256_0_0_768_640 : S2x3x1024x1024.Slices ![0, 0, 768, 640] S2x3x256x256
  slices_S49x2x3x256x256_S1x2x3x256x256_47_0_0_0_0 : S49x2x3x256x256.Slices ![47, 0, 0, 0, 0] S1x2x3x256x256
  slices_S2x3x1024x1024_S2x3x256x256_0_0_768_768 : S2x3x1024x1024.Slices ![0, 0, 768, 768] S2x3x256x256
  slices_S49x2x3x256x256_S1x2x3x256x256_48_0_0_0_0 : S49x2x3x256x256.Slices ![48, 0, 0, 0, 0] S1x2x3x256x256
  scatter_S2x3x1024x1024_S2_S2x3x256x256_0123_n_23_0_wf : ScatterDims.WF S2x3x1024x1024 S2 S2x3x256x256 [0, 1, 2, 3] [] [2, 3] 0

variable [Facts₀]

def scatter_S2x3x1024x1024_S2_S2x3x256x256_0123_n_23_0 : ScatterDims S2x3x1024x1024 S2 S2x3x256x256 where
  updateWindowDims := [0, 1, 2, 3]
  insertedWindowDims := []
  scatterDimsToOperandDims := [2, 3]
  indexVectorDim := 0
  wf := scatter_S2x3x1024x1024_S2_S2x3x256x256_0123_n_23_0_wf

class Facts : Prop extends Facts₀ where

variable [Facts]
-- ==== Proof.LibSharedLaunch.lean ====
/-
  THE FRAME RUN OF A KERNEL WHOSE INPUT WINDOWS SHARE AN ARRAY. One array handed to a pipelined kernel through several
  input windows is held by the windows together: the array's full share is dealt among them, each window holding the
  array at its own positive share, and a read-only window needs no more. Here the launch is stated in the form a value
  proof uses: from the proof data, the body obligation and the dealing of the arrays' buffers among the windows, every
  weakly fair execution terminates and every window's array ends at what the proof data compute for it.

  Also: a buffer held whole at the full share is held four times over at the four quarter shares
  (left-left, left-right, right-left, right-right of the tree share).
-/
import Idealize.ShloMosaic.Lib.Pipeline.Frame
import Idealize.ShloMosaic.Lib.Pipeline.Kit

noncomputable section

namespace Cert.Lib.SharedLaunch

open Idealize.ShloMosaic Idealize.ShloMosaic.Pipeline Idealize.ShloMosaic.Rounds
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run with shared input arrays: the invariant between points is the core's scoped buffers that are no
    staging buffer (untouched by a body that names none), nothing is owed, and `hsplit` deals the buffers behind the
    windows' arrays among the windows at the proof data's shares. Every window's array ends at `arrAt w N`. -/
theorem θ_run_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g)
      (fun r => ∀ c : Dev nD, ∀ w, r.2.mem (((cfgs p).spec w).arr.view.loc (c.tc : Thread nD τ)) = (dats p c).arrAt w (cfgs p).N) := by
  classical
  exact θ_run_region_noSem_shared cfgs dats () hinj p hw emb₁ defs₀ 𝒱₀ m g main hbody hne harr hstage howed
    (initOf (cells cfgs hinj) (launchToks cfgs hinj)) (Entails.of_eq (ownU_emb₁ _)) V hmain hsplit
    (X := fun _ => (BI.emp : sProp 𝕄)) (Y := fun _ => (BI.emp : sProp 𝕄))
    (Z := fun c => unscopedRest (Ix := Unit) (Name := ℕ) (U := UR sig nD τ) (Lvl := ℕ) (cfgs p).spec c (V c))
    (hX := fun c => by iintro H; isplitr; · iempintro
                       iexact H)
    (hin := fun c => by rw [hΦ]; iintro ⟨-, H⟩; iexact H)
    (hout := fun c => by rw [hΦ]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The windows' arrays, each a whole buffer, are held buffer by buffer: window `w`'s buffer whole, at the window's share. -/
theorem arrays_eq_shares {cfg : Cfg sig Λ₀} {c : Dev nD} (dat : Dat τ Val Unit ℕ (UR sig nD τ) ℕ cfg c)
    (harr : ∀ w, (cfg.spec w).arr.IsWhole)
    (F : (w : Fin cfg.W) → Buf Val ((cfg.spec w).arr.view.loc (c.tc : Thread nD τ))) :
    (dat.arrays F : sProp 𝕄)
      = bigSep Finset.univ fun w => (((c.tc : Thread nD τ).loc (arrRef cfg.spec w)) ↦{dat.share w} F w : sProp 𝕄) := by
  unfold Dat.arrays
  exact Idealize.SL.BI.bigSep_congr fun w _ => by rw [(harr w).set_eq_univ]

/-- A buffer's elements `I` held at the full share are held four times over, at the four quarter shares: the full
    share is its left and right halves, and each half its own two halves. -/
theorem pointsTo_quarters (ℓ : Loc nD τ sig) (I : Finset (Idx ℓ)) (f : Buf Val ℓ) :
    (ℓ ↦[I]{fullShare} f : sProp 𝕄)
      ⊢ iprop((ℓ ↦[I]{fullShare.left.left} f) ∗ (ℓ ↦[I]{fullShare.left.right} f)
          ∗ (ℓ ↦[I]{fullShare.right.left} f) ∗ ℓ ↦[I]{fullShare.right.right} f) := by
  iintro H
  ihave H2 := (pointsTo_share (PosShare.mem_left_op_right fullShare)).1 $$ H
  icases H2 with ⟨Hl, Hr⟩
  ihave Hl2 := (pointsTo_share (PosShare.mem_left_op_right fullShare.left)).1 $$ Hl
  icases Hl2 with ⟨Hll, Hlr⟩
  ihave Hr2 := (pointsTo_share (PosShare.mem_left_op_right fullShare.right)).1 $$ Hr
  icases Hr2 with ⟨Hrl, Hrr⟩
  isplitl [Hll]; · iexact Hll
  isplitl [Hlr]; · iexact Hlr
  isplitl [Hrl]; · iexact Hrl
  iexact Hrr

end Cert.Lib.SharedLaunch

end
-- ==== Proof.KernelFrame.lean ====
/-
  The frame run of `Kernel`'s one pipelined kernel, whose four input windows all read the SAME argument array.

  The output is an 8 × 8 grid of 128 × 128 cells; at cell (bi, bj) the kernel is handed four 128 × 128 corners of four
  patches of the argument (the candidates (i, j) ∈ {bi, bi−1} × {bj, bj−1}, clamped into 0‥6) and stores the pointwise
  maximum of those whose patch index was not clamped, the others replaced by −∞.

  The argument array is read by four windows at once: its full share is dealt in quarters, one to each window (a
  window that only reads needs no more), and the output array is held outright. The body never writes an input's
  staging buffer, so each input's buffer holds its block at every point, fetched there or not; the output's buffer
  after the body is the one store's payload over the four blocks. Between points the body keeps nothing.
-/
import proofs.«152043_j16088947491442_1_alg».proof.Proof.Gen.Kernel.Launch
import proofs.«152043_j16088947491442_1_alg».proof.Proof.Gen.Kernel.Skeleton
import proofs.«152043_j16088947491442_1_alg».proof.Proof.Gen.Kernel.Points
import proofs.«152043_j16088947491442_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Patch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core `c`'s buffers when the region is entered: as launched (the region is all of the program). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved, and the body left the block in place. One statement per window, each at its
    literal number, so that the window's block shape is the staging buffer's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output window's buffer -/

abbrev rIn : Rect S1x2x3x128x128 := Rect.unit (s := S1x2x3x128x128) ![0, 0, 0, 0, 0] S1x2x3x128x128.size inb_S1x2x3x128x128_S1x2x3x128x128_0_0_0_0_0
abbrev rOut : Rect S2x3x128x128 := Rect.unit (s := S2x3x128x128) ![0, 0, 0, 0] S2x3x128x128.size inb_S2x3x128x128_S2x3x128x128_0_0_0_0

/-- The output window's staging buffer after the body at grid coordinates `i`, from the four input blocks: its one
    store, of the maximum of the four masked corners. -/
def outBlock (i : grid0.Coords) (x0 x1 x2 x3 : Vec F S1x2x3x128x128 .f32) : Vec F S2x3x128x128 .f32 :=
  View.canon [⟨rOut, k0_pay1 i (View.ld x0 rIn) (View.ld x1 rIn) (View.ld x2 rIn) (View.ld x3 rIn)⟩]

/-- The one store covers the buffer. -/
theorem cover_out (p0 : Vec F S2x3x128x128 .f32) (y : S2x3x128x128.Idx) :
    ∃ pc ∈ ([⟨rOut, p0⟩] : List (View.Piece (Elt F) S2x3x128x128 .f32)), y ∈ pc.1.set :=
  View.cover_of_tiled [⟨rOut, p0⟩] S2x3x128x128.size (by rfl) y

/-! ## The body's triple -/

set_option maxHeartbeats 1000000 in
/-- The kernel body on whole staging memrefs, the inputs' at contents `x0 … x3` and the output's at anything, runs to
    the continuation holding the inputs' as they were and the output's at `outBlock` of them. -/
theorem sound_kernel (c : Dev nD) (E : Set ℕ) (i : grid0.Coords)
    (arg2 : Memref sig .tc .vmem S1x2x3x128x128 .f32) (harg2 : arg2.IsWhole) (arg3 : Memref sig .tc .vmem S1x2x3x128x128 .f32) (harg3 : arg3.IsWhole)
    (arg4 : Memref sig .tc .vmem S1x2x3x128x128 .f32) (harg4 : arg4.IsWhole) (arg5 : Memref sig .tc .vmem S1x2x3x128x128 .f32) (harg5 : arg5.IsWhole)
    (arg6 : Memref sig .tc .vmem S2x3x128x128 .f32) (harg6 : arg6.IsWhole)
    (x0 x1 x2 x3 : Vec F S1x2x3x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock i x0 x1 x2 x3)) -∗ K ⟨⟩))
      ⊢ wp frame (wpE (defs₀ (F := F)) Variants.none c none) E (cc0__unpatch_kernel i arg2 harg2 arg3 harg3 arg4 harg4 arg5 harg5 arg6 harg6) K := by
  simp only [cc0__unpatch_kernel_eq_skeleton]; unfold cc0__unpatch_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer at
    its block and the output's at `outBlock` of the four blocks; between points, the scoped buffers that are no staging
    buffer; the argument array's share dealt in quarters to the four windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays' buffers dealt among the windows -/

/-- The buffers behind the windows' arrays are the argument's and the result's. -/
theorem arrRefs_eq : (Finset.univ.image (Pipeline.arrRef spec0) : Finset (Ref sig .tc)) = [main_arg0, main_v0].toFinset := by decide

/-- The two buffers, each whole at the full share as launched, are the five windows' holdings: the argument's at the
    four quarter shares, the result's outright. -/
theorem hsplit (c : Dev nD) :
    (Pipeline.arrBufs spec0 c (V m c) : sProp 𝕄) ⊢ (dats m 0 c).arrays ((dats m 0 c).arrAt · 0) := by
  rw [Cert.Lib.SharedLaunch.arrays_eq_shares (dats m 0 c) arr_whole0, bigSep_W0]
  unfold Pipeline.arrBufs
  rw [bigSep_eq_bigSepL_of_eq [main_arg0, main_v0] arrRefs_eq (by decide)]
  refine (show iprop((((c.tc : Thread nD τ).loc main_arg0) ↦{fullShare} V m c main_arg0)
      ∗ (((c.tc : Thread nD τ).loc main_v0) ↦{fullShare} V m c main_v0)) ⊢ _ from ?_)
  iintro ⟨Ha, Hv⟩
  ihave Hq := (Cert.Lib.SharedLaunch.pointsTo_quarters _ _ _) $$ Ha
  icases Hq with ⟨H0, H1, H2, H3⟩
  isplitl [H0]; · iexact H0
  isplitl [H1]; · iexact H1
  isplitl [H2]; · iexact H2
  isplitl [H3]; · iexact H3
  iexact Hv

/-! ## The run -/

set_option backward.isDefEq.respectTransparency.types false in
/-- From any memory with zero counters every weakly fair execution of the program terminates, and every window's array
    ends at what the proof data compute: an input's as launched, the output's overwritten block by block. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Cert.Lib.SharedLaunch.θ_run_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ _ => rfl)

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans (A_eq m c 0))) (run_main m ρ)

end Cert.Kernel.Patch

end
-- ==== Proof.IdealFrame.lean ====
/-
  The frame run of `KernelIdeal`'s one pipelined kernel, whose four input windows all read the SAME argument array.

  The output is an 8 × 8 grid of 128 × 128 cells; at cell (bi, bj) the kernel is handed four 128 × 128 corners of four
  patches of the argument (the candidates (i, j) ∈ {bi, bi−1} × {bj, bj−1}, clamped into 0‥6) and stores the pointwise
  maximum of those whose patch index was not clamped, the others replaced by −∞.

  The argument array is read by four windows at once: its full share is dealt in quarters, one to each window (a
  window that only reads needs no more), and the output array is held outright. The body never writes an input's
  staging buffer, so each input's buffer holds its block at every point, fetched there or not; the output's buffer
  after the body is the one store's payload over the four blocks. Between points the body keeps nothing.
-/
import proofs.«152043_j16088947491442_1_alg».proof.Proof.Gen.KernelIdeal.Launch
import proofs.«152043_j16088947491442_1_alg».proof.Proof.Gen.KernelIdeal.Skeleton
import proofs.«152043_j16088947491442_1_alg».proof.Proof.Gen.KernelIdeal.Points
import proofs.«152043_j16088947491442_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Patch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core `c`'s buffers when the region is entered: as launched (the region is all of the program). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved, and the body left the block in place. One statement per window, each at its
    literal number, so that the window's block shape is the staging buffer's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output window's buffer -/

abbrev rIn : Rect S1x2x3x128x128 := Rect.unit (s := S1x2x3x128x128) ![0, 0, 0, 0, 0] S1x2x3x128x128.size inb_S1x2x3x128x128_S1x2x3x128x128_0_0_0_0_0
abbrev rOut : Rect S2x3x128x128 := Rect.unit (s := S2x3x128x128) ![0, 0, 0, 0] S2x3x128x128.size inb_S2x3x128x128_S2x3x128x128_0_0_0_0

/-- The output window's staging buffer after the body at grid coordinates `i`, from the four input blocks: its one
    store, of the maximum of the four masked corners. -/
def outBlock (i : grid0.Coords) (x0 x1 x2 x3 : Vec F S1x2x3x128x128 .f32) : Vec F S2x3x128x128 .f32 :=
  View.canon [⟨rOut, k0_pay1 i (View.ld x0 rIn) (View.ld x1 rIn) (View.ld x2 rIn) (View.ld x3 rIn)⟩]

/-- The one store covers the buffer. -/
theorem cover_out (p0 : Vec F S2x3x128x128 .f32) (y : S2x3x128x128.Idx) :
    ∃ pc ∈ ([⟨rOut, p0⟩] : List (View.Piece (Elt F) S2x3x128x128 .f32)), y ∈ pc.1.set :=
  View.cover_of_tiled [⟨rOut, p0⟩] S2x3x128x128.size (by rfl) y

/-! ## The body's triple -/

set_option maxHeartbeats 1000000 in
/-- The kernel body on whole staging memrefs, the inputs' at contents `x0 … x3` and the output's at anything, runs to
    the continuation holding the inputs' as they were and the output's at `outBlock` of them. -/
theorem sound_kernel (c : Dev nD) (E : Set ℕ) (i : grid0.Coords)
    (arg2 : Memref sig .tc .vmem S1x2x3x128x128 .f32) (harg2 : arg2.IsWhole) (arg3 : Memref sig .tc .vmem S1x2x3x128x128 .f32) (harg3 : arg3.IsWhole)
    (arg4 : Memref sig .tc .vmem S1x2x3x128x128 .f32) (harg4 : arg4.IsWhole) (arg5 : Memref sig .tc .vmem S1x2x3x128x128 .f32) (harg5 : arg5.IsWhole)
    (arg6 : Memref sig .tc .vmem S2x3x128x128 .f32) (harg6 : arg6.IsWhole)
    (x0 x1 x2 x3 : Vec F S1x2x3x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock i x0 x1 x2 x3)) -∗ K ⟨⟩))
      ⊢ wp frame (wpE (defs₀ (F := F)) Variants.none c none) E (cc0__unpatch_kernel i arg2 harg2 arg3 harg3 arg4 harg4 arg5 harg5 arg6 harg6) K := by
  simp only [cc0__unpatch_kernel_eq_skeleton]; unfold cc0__unpatch_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer at
    its block and the output's at `outBlock` of the four blocks; between points, the scoped buffers that are no staging
    buffer; the argument array's share dealt in quarters to the four windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays' buffers dealt among the windows -/

/-- The buffers behind the windows' arrays are the argument's and the result's. -/
theorem arrRefs_eq : (Finset.univ.image (Pipeline.arrRef spec0) : Finset (Ref sig .tc)) = [main_arg0, main_v0].toFinset := by decide

/-- The two buffers, each whole at the full share as launched, are the five windows' holdings: the argument's at the
    four quarter shares, the result's outright. -/
theorem hsplit (c : Dev nD) :
    (Pipeline.arrBufs spec0 c (V m c) : sProp 𝕄) ⊢ (dats m 0 c).arrays ((dats m 0 c).arrAt · 0) := by
  rw [Cert.Lib.SharedLaunch.arrays_eq_shares (dats m 0 c) arr_whole0, bigSep_W0]
  unfold Pipeline.arrBufs
  rw [bigSep_eq_bigSepL_of_eq [main_arg0, main_v0] arrRefs_eq (by decide)]
  refine (show iprop((((c.tc : Thread nD τ).loc main_arg0) ↦{fullShare} V m c main_arg0)
      ∗ (((c.tc : Thread nD τ).loc main_v0) ↦{fullShare} V m c main_v0)) ⊢ _ from ?_)
  iintro ⟨Ha, Hv⟩
  ihave Hq := (Cert.Lib.SharedLaunch.pointsTo_quarters _ _ _) $$ Ha
  icases Hq with ⟨H0, H1, H2, H3⟩
  isplitl [H0]; · iexact H0
  isplitl [H1]; · iexact H1
  isplitl [H2]; · iexact H2
  isplitl [H3]; · iexact H3
  iexact Hv

/-! ## The run -/

set_option backward.isDefEq.respectTransparency.types false in
/-- From any memory with zero counters every weakly fair execution of the program terminates, and every window's array
    ends at what the proof data compute: an input's as launched, the output's overwritten block by block. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Cert.Lib.SharedLaunch.θ_run_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ _ => rfl)

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans (A_eq m c 0))) (run_main m ρ)

end Cert.KernelIdeal.Patch

end
-- ==== Proof.PatchMath.lean ====
/-
  THE LARGEST COVERING PATCH VALUE. An image position (h, w), 0 ≤ h, w < 1024, is covered by patch k = 7·i + j
  (0 ≤ i, j ≤ 6) when 128·i ≤ h < 128·i + 256 and 128·j ≤ w < 128·j + 256; the patch then contributes its element at the
  window coordinates (h − 128·i, w − 128·j). Both programs compute, at every position, the largest contribution of the
  covering patches, −∞ (the order's bottom) when none covers it.

  That value is pinned down by two properties — it is above every covering patch's contribution, and it is bottom or is
  one of them — and in a linear order two values with both properties are equal. The fold over the patches in order
  keeps the properties one patch at a time; and the kernel's formula has them: with (bi, bj) = (h / 128, w / 128), the
  covering patches are exactly (i, j) ∈ {bi, bi − 1} × {bj, bj − 1} inside 0‥6, and the kernel takes the maximum of
  those four contributions, each replaced by bottom when its (i, j) falls outside.
-/
import Mathlib.Order.Lattice
import Mathlib.Order.BoundedOrder.Basic
import Mathlib.Order.MinMax
import Mathlib.Tactic

namespace Cert.PatchMath

variable {α : Type} [LinearOrder α] [OrderBot α]

/-- Patch `k` covers position `(h, w)`. -/
def Covers (h w k : Nat) : Prop :=
  (128 * (k / 7) ≤ h ∧ h < 128 * (k / 7) + 256) ∧ (128 * (k % 7) ≤ w ∧ w < 128 * (k % 7) + 256)

instance (h w k : Nat) : Decidable (Covers h w k) := by unfold Covers; infer_instance

/-- Patch `k`'s contribution at `(h, w)`: its element at the window coordinates (`f k p q` is element `(p, q)` of patch `k`). -/
def contrib (f : Nat → Nat → Nat → α) (h w k : Nat) : α := f k (h - 128 * (k / 7)) (w - 128 * (k % 7))

/-- `r` is the largest contribution at `(h, w)` among the covering patches below `n`, bottom when there is none. -/
def IsTop (f : Nat → Nat → Nat → α) (h w n : Nat) (r : α) : Prop :=
  (∀ k < n, Covers h w k → contrib f h w k ≤ r) ∧ (r = ⊥ ∨ ∃ k < n, Covers h w k ∧ r = contrib f h w k)

/-- Before any patch the value is bottom. -/
theorem isTop_zero (f : Nat → Nat → Nat → α) (h w : Nat) : IsTop f h w 0 (⊥ : α) :=
  ⟨fun k hk => absurd hk (Nat.not_lt_zero k), Or.inl rfl⟩

/-- One more patch: where it covers the position the value becomes the maximum with its contribution, elsewhere it stays. -/
theorem isTop_step (f : Nat → Nat → Nat → α) (h w n : Nat) (r : α) (hr : IsTop f h w n r) :
    IsTop f h w (n + 1) (if Covers h w n then max r (contrib f h w n) else r) := by
  obtain ⟨hub, hmem⟩ := hr
  by_cases hc : Covers h w n
  · rw [if_pos hc]
    refine ⟨fun k hk hck => ?_, ?_⟩
    · rcases Nat.lt_succ_iff_lt_or_eq.mp hk with hlt | rfl
      · exact le_trans (hub k hlt hck) (le_max_left _ _)
      · exact le_max_right _ _
    · rcases max_choice r (contrib f h w n) with e | e
      · rw [e]
        rcases hmem with hb | ⟨k, hk, hck, hrk⟩
        · exact Or.inl hb
        · exact Or.inr ⟨k, Nat.lt_succ_of_lt hk, hck, hrk⟩
      · rw [e]
        exact Or.inr ⟨n, Nat.lt_succ_self n, hc, rfl⟩
  · rw [if_neg hc]
    refine ⟨fun k hk hck => ?_, ?_⟩
    · rcases Nat.lt_succ_iff_lt_or_eq.mp hk with hlt | rfl
      · exact hub k hlt hck
      · exact absurd hck hc
    · rcases hmem with hb | ⟨k, hk, hck, hrk⟩
      · exact Or.inl hb
      · exact Or.inr ⟨k, Nat.lt_succ_of_lt hk, hck, hrk⟩

/-- Two values with both properties are equal. -/
theorem isTop_unique (f : Nat → Nat → Nat → α) (h w n : Nat) (r r' : α) (hr : IsTop f h w n r) (hr' : IsTop f h w n r') :
    r = r' := by
  have key : ∀ a b : α, IsTop f h w n a → IsTop f h w n b → a ≤ b := fun a b ha hb => by
    rcases ha.2 with e | ⟨k, hk, hck, e⟩
    · rw [e]; exact bot_le
    · rw [e]; exact hb.1 k hk hck
  exact le_antisymm (key r r' hr hr') (key r' r hr' hr)

/-- The kernel's value at `(h, w)`: the maximum of the four corner candidates, a candidate whose patch row or column
    would fall outside `0‥6` replaced by bottom (its index is then the clamped one, and is not read). -/
def fourMax (f : Nat → Nat → Nat → α) (h w : Nat) : α :=
  max (max (if h / 128 ≤ 6 ∧ w / 128 ≤ 6 then f (7 * min (h / 128) 6 + min (w / 128) 6) (h % 128) (w % 128) else ⊥)
           (if h / 128 ≤ 6 ∧ 1 ≤ w / 128 then f (7 * min (h / 128) 6 + (w / 128 - 1)) (h % 128) (128 + w % 128) else ⊥))
      (max (if 1 ≤ h / 128 ∧ w / 128 ≤ 6 then f (7 * (h / 128 - 1) + min (w / 128) 6) (128 + h % 128) (w % 128) else ⊥)
           (if 1 ≤ h / 128 ∧ 1 ≤ w / 128 then f (7 * (h / 128 - 1) + (w / 128 - 1)) (128 + h % 128) (128 + w % 128) else ⊥))

/-- A value that is bottom or a covering patch's contribution; closed under the maximum of two. -/
private def Hit (f : Nat → Nat → Nat → α) (h w : Nat) (r : α) : Prop :=
  r = ⊥ ∨ ∃ k < 49, Covers h w k ∧ r = contrib f h w k

private theorem hit_max (f : Nat → Nat → Nat → α) (h w : Nat) (a b : α) (ha : Hit f h w a) (hb : Hit f h w b) :
    Hit f h w (max a b) := by
  rcases max_choice a b with e | e <;> rw [e] <;> assumption

/-- A candidate: under its condition it is the contribution of a covering patch, otherwise bottom. -/
private theorem hit_cand (f : Nat → Nat → Nat → α) (h w : Nat) (C : Prop) [Decidable C] (k p q : Nat)
    (hk : C → k < 49 ∧ Covers h w k ∧ p = h - 128 * (k / 7) ∧ q = w - 128 * (k % 7)) :
    Hit f h w (if C then f k p q else ⊥) := by
  by_cases hC : C
  · rw [if_pos hC]
    obtain ⟨h1, h2, h3, h4⟩ := hk hC
    exact Or.inr ⟨k, h1, h2, by unfold contrib; rw [h3, h4]⟩
  · rw [if_neg hC]; exact Or.inl rfl

/-- The kernel's formula is the largest covering contribution over all 49 patches. -/
theorem fourMax_isTop (f : Nat → Nat → Nat → α) (h w : Nat) (hh : h < 1024) (hw : w < 1024) : IsTop f h w 49 (fourMax f h w) := by
  refine ⟨fun k hk hck => ?_, ?_⟩
  · obtain ⟨⟨h1, h2⟩, ⟨h3, h4⟩⟩ := hck
    have hi : k / 7 = h / 128 ∨ k / 7 + 1 = h / 128 := by omega
    have hj : k % 7 = w / 128 ∨ k % 7 + 1 = w / 128 := by omega
    unfold fourMax contrib
    rcases hi with hi | hi <;> rcases hj with hj | hj
    · refine le_trans (le_of_eq ?_) (le_trans (le_max_left _ _) (le_max_left _ _))
      rw [if_pos (by omega)]
      congr 1 <;> omega
    · refine le_trans (le_of_eq ?_) (le_trans (le_max_right _ _) (le_max_left _ _))
      rw [if_pos (by omega)]
      congr 1 <;> omega
    · refine le_trans (le_of_eq ?_) (le_trans (le_max_left _ _) (le_max_right _ _))
      rw [if_pos (by omega)]
      congr 1 <;> omega
    · refine le_trans (le_of_eq ?_) (le_trans (le_max_right _ _) (le_max_right _ _))
      rw [if_pos (by omega)]
      congr 1 <;> omega
  · unfold fourMax
    refine hit_max f h w _ _ (hit_max f h w _ _ ?_ ?_) (hit_max f h w _ _ ?_ ?_)
    · exact hit_cand f h w _ _ _ _ fun hC => by unfold Covers; omega
    · exact hit_cand f h w _ _ _ _ fun hC => by unfold Covers; omega
    · exact hit_cand f h w _ _ _ _ fun hC => by unfold Covers; omega
    · exact hit_cand f h w _ _ _ _ fun hC => by unfold Covers; omega

end Cert.PatchMath
-- ==== Proof.PatchSpec.lean ====
/-
  THE RESULT AS ONE FUNCTION OF THE ARGUMENT. The argument holds 49 patches of [2, 3, 256, 256]; the result image is
  [2, 3, 1024, 1024]. At image element (b, c, h, w) both programs hold the largest contribution of the patches covering
  (h, w), −∞ when none does (PatchMath). Here that function is stated over the literal shapes, in the kernel's
  four-candidate form, and read at the coordinates of the 128 × 128 cell (bi, bj): row 128·bi + r, column 128·bj + s.
-/
import Idealize.ShloMosaic.PureOps.Ideal
import Idealize.ShloMosaic.Lib.ValueIdx
import proofs.«152043_j16088947491442_1_alg».proof.Proof.PatchMath

noncomputable section

namespace Cert.PatchSpec

open Idealize.ShloMosaic Idealize.ShloMosaic.ValueIdx Cert.PatchMath

abbrev SArg : Shape := ⟨5, ![49, 2, 3, 256, 256]⟩
abbrev SImg : Shape := ⟨4, ![2, 3, 1024, 1024]⟩

/-- Element `(p, q)` of patch `k` at batch `b`, channel `c` (coordinates beyond the patch read its last row or column: the
    programs never ask for them). -/
def elt (x : SArg.Idx → EReal) (b : Fin 2) (c : Fin 3) (k p q : Nat) : EReal :=
  x (ix5 (⟨min k 48, by omega⟩ : Fin 49) b c (⟨min p 255, by omega⟩ : Fin 256) (⟨min q 255, by omega⟩ : Fin 256))

/-- Inside the array the accessor is the array. -/
theorem elt_eq (x : SArg.Idx → EReal) (b : Fin 2) (c : Fin 3) (k : Fin 49) (p q : Fin 256) :
    elt x b c k.val p.val q.val = x (ix5 k b c p q) := by
  unfold elt
  have hk : (⟨min k.val 48, by omega⟩ : Fin 49) = k := Fin.ext (by show min k.val 48 = k.val; have := k.isLt; omega)
  have hp : (⟨min p.val 255, by omega⟩ : Fin 256) = p := Fin.ext (by show min p.val 255 = p.val; have := p.isLt; omega)
  have hq : (⟨min q.val 255, by omega⟩ : Fin 256) = q := Fin.ext (by show min q.val 255 = q.val; have := q.isLt; omega)
  rw [hk, hp, hq]

/-- The result image: at `(b, c, h, w)` the largest covering patch value, in the four-candidate form. -/
def G (x : SArg.Idx → EReal) : SImg.Idx → EReal :=
  fun i => fourMax (elt x (i 0) (i 1)) (i 2).val (i 3).val

/-- `G` read at cell `(bi, bj)`, row `r` and column `s` of the cell: the four corner elements, each under its condition. -/
theorem G_block (x : SArg.Idx → EReal) (b : Fin 2) (c : Fin 3) (bi bj : Nat) (hbi : bi < 8) (hbj : bj < 8) (r s : Fin 128) :
    G x (ix4 b c (⟨128 * bi + r.val, by have := r.isLt; omega⟩ : Fin 1024) (⟨128 * bj + s.val, by have := s.isLt; omega⟩ : Fin 1024))
      = max (max (if bi ≤ 6 ∧ bj ≤ 6 then elt x b c (7 * min bi 6 + min bj 6) r.val s.val else ⊥)
                 (if bi ≤ 6 ∧ 1 ≤ bj then elt x b c (7 * min bi 6 + (bj - 1)) r.val (128 + s.val) else ⊥))
            (max (if 1 ≤ bi ∧ bj ≤ 6 then elt x b c (7 * (bi - 1) + min bj 6) (128 + r.val) s.val else ⊥)
                 (if 1 ≤ bi ∧ 1 ≤ bj then elt x b c (7 * (bi - 1) + (bj - 1)) (128 + r.val) (128 + s.val) else ⊥)) := by
  have hr := r.isLt
  have hs := s.isLt
  show fourMax (elt x b c) (128 * bi + r.val) (128 * bj + s.val) = _
  unfold fourMax
  have e1 : (128 * bi + r.val) / 128 = bi := by omega
  have e2 : (128 * bi + r.val) % 128 = r.val := by omega
  have e3 : (128 * bj + s.val) / 128 = bj := by omega
  have e4 : (128 * bj + s.val) % 128 = s.val := by omega
  rw [e1, e2, e3, e4]

end Cert.PatchSpec

end
-- ==== Proof.IdealValue.lean ====
/-
  THE VALUE OF THE IDEALIZED KERNEL. At the extended reals the body's store at grid cell (bi, bj), read at an element, is the
  maximum of four corner elements of four patches, a corner replaced by −∞ when its patch row or column was clamped; each
  output block is the block of ONE whole-image function of the argument (the largest covering patch value, in the
  kernel's four-candidate form), and the 8 × 8 blocks tile the image, so the result array ends holding that function.
-/
import proofs.«152043_j16088947491442_1_alg».proof.Proof.IdealFrame
import proofs.«152043_j16088947491442_1_alg».proof.Proof.PatchMath
import proofs.«152043_j16088947491442_1_alg».proof.Proof.PatchSpec
import Idealize.ShloMosaic.PureOps.Ideal
import Idealize.ShloMosaic.Lib.ValueIdx
import Idealize.ShloMosaic.Lib.Pipeline.Value

set_option maxRecDepth 16384

noncomputable section

namespace Cert.KernelIdeal.PatchValue

open Cert.KernelIdeal Cert.KernelIdeal.Gen Cert.KernelIdeal.Patch
open Idealize.ShloMosaic Idealize.ShloMosaic.TcCoe Idealize.ShloMosaic.ValueIdx Idealize.SL.Sem
open Idealize.ShloMosaic.Pipeline (Dat)

/-! ## The body's conditions as propositions -/

/-- A grid coordinate `a < 8`, as a 32-bit word, is signed-at-most 6 exactly when `a ≤ 6`. -/
theorem cmpi_sle_six (a : Nat) (ha : a < 8) :
    Scalar.cmpi .sle (BitVec.ofNat 32 a) 6#32 = if a ≤ 6 then 1#1 else 0#1 := by
  interval_cases a <;> rfl

/-- A grid coordinate `a < 8`, as a 32-bit word, is signed-at-least 1 exactly when `1 ≤ a`. -/
theorem cmpi_sge_one (a : Nat) (ha : a < 8) :
    Scalar.cmpi .sge (BitVec.ofNat 32 a) 1#32 = if 1 ≤ a then 1#1 else 0#1 := by
  interval_cases a <;> rfl

/-- The conjunction of two one-bit truth values. -/
theorem andi_ite (P Q : Prop) [Decidable P] [Decidable Q] :
    Scalar.andi (if P then 1#1 else 0#1) (if Q then 1#1 else 0#1) = if P ∧ Q then 1#1 else 0#1 := by
  by_cases hP : P <;> by_cases hQ : Q <;> simp [hP, hQ, Scalar.andi, IntOp.andi]

/-- A select on a one-bit truth value is the conditional. -/
theorem select_ite {α : Type} (P : Prop) [Decidable P] (a b : α) :
    Scalar.select (if P then 1#1 else 0#1) a b = if P then a else b := by
  by_cases hP : P
  · rw [if_pos hP, if_pos hP]; exact select_one a b
  · rw [if_neg hP, if_neg hP]; exact select_zero a b

/-- The pattern `0xFF800000` denotes −∞, the extended reals' bottom. -/
theorem negInf : Ideal.ofBits .f32 0xFF800000#32 = (⊥ : EReal) := by simp [Ideal.ofBits, Ideal.ieee]

/-- THE PAYLOAD AT AN ELEMENT: the maximum of the four loaded blocks' elements there, each kept under its pair of
    conditions on the grid coordinates and otherwise −∞. -/
theorem pay_apply (i : grid0.Coords) (x0 x1 x2 x3 : Vec Ideal S1x2x3x128x128 .f32) (j : S2x3x128x128.Idx) :
    k0_pay1 (F := Ideal) i x0 x1 x2 x3 j
      = max (max (if (i 0).val ≤ 6 ∧ (i 1).val ≤ 6 then shapeCast S2x3x128x128 x0 shapeCasts_S1x2x3x128x128_S2x3x128x128 j else (⊥ : EReal))
                 (if (i 0).val ≤ 6 ∧ 1 ≤ (i 1).val then shapeCast S2x3x128x128 x1 shapeCasts_S1x2x3x128x128_S2x3x128x128 j else (⊥ : EReal)))
            (max (if 1 ≤ (i 0).val ∧ (i 1).val ≤ 6 then shapeCast S2x3x128x128 x2 shapeCasts_S1x2x3x128x128_S2x3x128x128 j else (⊥ : EReal))
                 (if 1 ≤ (i 0).val ∧ 1 ≤ (i 1).val then shapeCast S2x3x128x128 x3 shapeCasts_S1x2x3x128x128_S2x3x128x128 j else (⊥ : EReal))) := by
  unfold k0_pay1
  dsimp only
  rw [cmpi_sle_six _ (i 0).isLt, cmpi_sle_six _ (i 1).isLt, cmpi_sge_one _ (i 0).isLt, cmpi_sge_one _ (i 1).isLt]
  rw [andi_ite, andi_ite, andi_ite, andi_ite, select_ite, select_ite, select_ite, select_ite]
  simp only [maximumf_apply, ite_apply, broadcast_apply, Ideal.ofBits_def, negInf]

/-! ## The windows' index maps over the grid -/

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The printed index maps at grid point `t`, with `(bi, bj)` its coordinates: the four input windows take the corner
    `(di, dj)` of patch `7·i + j`, `i` being `bi` clamped to at most 6 or `bi − 1` clamped to at least 0, `j` likewise; the
    output window takes cell `(bi, bj)`. Decided over the 64 points. -/
theorem idx_facts : ∀ t : Fin cfg0.N,
    win0_0.index t (0 : Fin 5) = 7 * min (grid0.coords t 0).val 6 + min (grid0.coords t 1).val 6
    ∧ win0_0.index t (1 : Fin 5) = 0
    ∧ win0_0.index t (2 : Fin 5) = 0
    ∧ win0_0.index t (3 : Fin 5) = 0
    ∧ win0_0.index t (4 : Fin 5) = 0
    ∧ win0_1.index t (0 : Fin 5) = 7 * min (grid0.coords t 0).val 6 + ((grid0.coords t 1).val - 1)
    ∧ win0_1.index t (1 : Fin 5) = 0
    ∧ win0_1.index t (2 : Fin 5) = 0
    ∧ win0_1.index t (3 : Fin 5) = 0
    ∧ win0_1.index t (4 : Fin 5) = 1
    ∧ win0_2.index t (0 : Fin 5) = 7 * ((grid0.coords t 0).val - 1) + min (grid0.coords t 1).val 6
    ∧ win0_2.index t (1 : Fin 5) = 0
    ∧ win0_2.index t (2 : Fin 5) = 0
    ∧ win0_2.index t (3 : Fin 5) = 1
    ∧ win0_2.index t (4 : Fin 5) = 0
    ∧ win0_3.index t (0 : Fin 5) = 7 * ((grid0.coords t 0).val - 1) + ((grid0.coords t 1).val - 1)
    ∧ win0_3.index t (1 : Fin 5) = 0
    ∧ win0_3.index t (2 : Fin 5) = 0
    ∧ win0_3.index t (3 : Fin 5) = 1
    ∧ win0_3.index t (4 : Fin 5) = 1
    ∧ win0_4.index t (0 : Fin 4) = 0
    ∧ win0_4.index t (1 : Fin 4) = 0
    ∧ win0_4.index t (2 : Fin 4) = (grid0.coords t 0).val
    ∧ win0_4.index t (3 : Fin 4) = (grid0.coords t 1).val :=
  (by decide +kernel : ∀ t : Fin grid0.N, _)

/-- Every cell is some point's. -/
theorem idx_onto : ∀ (q0 q1 : Fin 8), ∃ t : Fin cfg0.N, win0_4.index t = ![0, 0, q0.val, q1.val] :=
  (by decide +kernel : ∀ (q0 q1 : Fin 8), ∃ t : Fin grid0.N, win0_4.index t = ![0, 0, q0.val, q1.val])

variable (m : (ℓ : Loc nD τ sig) → Buf (Elt Ideal) ℓ) (ρ : Dev nD → PrngReg)

/-! ## The blocks read at an element -/

/-- A [1, 2, 3, 128, 128] block cast to [2, 3, 128, 128] keeps its elements. -/
theorem cast_apply (x : Vec Ideal S1x2x3x128x128 .f32) (b : Fin 2) (c' : Fin 3) (r s : Fin 128) :
    shapeCast S2x3x128x128 x shapeCasts_S1x2x3x128x128_S2x3x128x128 (ix4 b c' r s) = x (ix5 (0 : Fin 1) b c' r s) :=
  shapeCast_apply x _ _ _ (by
    rw [Shape.rowMajor_val_five, Shape.rowMajor_val_four]
    show (((0 * 2 + b.val) * 3 + c'.val) * 128 + r.val) * 128 + s.val = ((b.val * 3 + c'.val) * 128 + r.val) * 128 + s.val
    rw [Nat.zero_mul, Nat.zero_add])

/-- Each input window's block at point `t`, read at `(0, b, c, r, s)`, is an element of the argument: of the patch and
    corner the window's index map names. -/
theorem read_in0 (c : Dev nD) (t : Fin cfg0.N) (b : Fin 2) (c' : Fin 3) (r s : Fin 128) :
    iblk m c 0 t (ix5 (0 : Fin 1) b c' r s)
      = PatchSpec.elt (V m c main_arg0) b c' (7 * min (grid0.coords t 0).val 6 + min (grid0.coords t 1).val 6) (r.val) (s.val) := by
  show V m c main_arg0 (((cfg0.win 0).blk t).view.emb (ix5 (0 : Fin 1) b c' r s)) = _
  unfold PatchSpec.elt
  refine congrArg _ (funext fun a => Fin.ext ?_)
  obtain ⟨f0, f1, f2, f3, f4, f5, f6, f7, f8, f9, f10, f11, f12, f13, f14, f15, f16, f17, f18, f19, f20, f21, f22, f23⟩ := idx_facts t
  have hr := r.isLt
  have hs := s.isLt
  have hbi : (grid0.coords t 0).val < 8 := (grid0.coords t 0).isLt
  have hbj : (grid0.coords t 1).val < 8 := (grid0.coords t 1).isLt
  match a with
  | ⟨0, _⟩ => show win0_0.index t (0 : Fin 5) * 1 + 1 * 0 = min (7 * min (grid0.coords t 0).val 6 + min (grid0.coords t 1).val 6) 48; omega
  | ⟨1, _⟩ => show win0_0.index t (1 : Fin 5) * 2 + 1 * b.val = b.val; omega
  | ⟨2, _⟩ => show win0_0.index t (2 : Fin 5) * 3 + 1 * c'.val = c'.val; omega
  | ⟨3, _⟩ => show win0_0.index t (3 : Fin 5) * 128 + 1 * r.val = min (r.val) 255; omega
  | ⟨4, _⟩ => show win0_0.index t (4 : Fin 5) * 128 + 1 * s.val = min (s.val) 255; omega

theorem read_in1 (c : Dev nD) (t : Fin cfg0.N) (b : Fin 2) (c' : Fin 3) (r s : Fin 128) :
    iblk m c 1 t (ix5 (0 : Fin 1) b c' r s)
      = PatchSpec.elt (V m c main_arg0) b c' (7 * min (grid0.coords t 0).val 6 + ((grid0.coords t 1).val - 1)) (r.val) (128 + s.val) := by
  show V m c main_arg0 (((cfg0.win 1).blk t).view.emb (ix5 (0 : Fin 1) b c' r s)) = _
  unfold PatchSpec.elt
  refine congrArg _ (funext fun a => Fin.ext ?_)
  obtain ⟨f0, f1, f2, f3, f4, f5, f6, f7, f8, f9, f10, f11, f12, f13, f14, f15, f16, f17, f18, f19, f20, f21, f22, f23⟩ := idx_facts t
  have hr := r.isLt
  have hs := s.isLt
  have hbi : (grid0.coords t 0).val < 8 := (grid0.coords t 0).isLt
  have hbj : (grid0.coords t 1).val < 8 := (grid0.coords t 1).isLt
  match a with
  | ⟨0, _⟩ => show win0_1.index t (0 : Fin 5) * 1 + 1 * 0 = min (7 * min (grid0.coords t 0).val 6 + ((grid0.coords t 1).val - 1)) 48; omega
  | ⟨1, _⟩ => show win0_1.index t (1 : Fin 5) * 2 + 1 * b.val = b.val; omega
  | ⟨2, _⟩ => show win0_1.index t (2 : Fin 5) * 3 + 1 * c'.val = c'.val; omega
  | ⟨3, _⟩ => show win0_1.index t (3 : Fin 5) * 128 + 1 * r.val = min (r.val) 255; omega
  | ⟨4, _⟩ => show win0_1.index t (4 : Fin 5) * 128 + 1 * s.val = min (128 + s.val) 255; omega

theorem read_in2 (c : Dev nD) (t : Fin cfg0.N) (b : Fin 2) (c' : Fin 3) (r s : Fin 128) :
    iblk m c 2 t (ix5 (0 : Fin 1) b c' r s)
      = PatchSpec.elt (V m c main_arg0) b c' (7 * ((grid0.coords t 0).val - 1) + min (grid0.coords t 1).val 6) (128 + r.val) (s.val) := by
  show V m c main_arg0 (((cfg0.win 2).blk t).view.emb (ix5 (0 : Fin 1) b c' r s)) = _
  unfold PatchSpec.elt
  refine congrArg _ (funext fun a => Fin.ext ?_)
  obtain ⟨f0, f1, f2, f3, f4, f5, f6, f7, f8, f9, f10, f11, f12, f13, f14, f15, f16, f17, f18, f19, f20, f21, f22, f23⟩ := idx_facts t
  have hr := r.isLt
  have hs := s.isLt
  have hbi : (grid0.coords t 0).val < 8 := (grid0.coords t 0).isLt
  have hbj : (grid0.coords t 1).val < 8 := (grid0.coords t 1).isLt
  match a with
  | ⟨0, _⟩ => show win0_2.index t (0 : Fin 5) * 1 + 1 * 0 = min (7 * ((grid0.coords t 0).val - 1) + min (grid0.coords t 1).val 6) 48; omega
  | ⟨1, _⟩ => show win0_2.index t (1 : Fin 5) * 2 + 1 * b.val = b.val; omega
  | ⟨2, _⟩ => show win0_2.index t (2 : Fin 5) * 3 + 1 * c'.val = c'.val; omega
  | ⟨3, _⟩ => show win0_2.index t (3 : Fin 5) * 128 + 1 * r.val = min (128 + r.val) 255; omega
  | ⟨4, _⟩ => show win0_2.index t (4 : Fin 5) * 128 + 1 * s.val = min (s.val) 255; omega

theorem read_in3 (c : Dev nD) (t : Fin cfg0.N) (b : Fin 2) (c' : Fin 3) (r s : Fin 128) :
    iblk m c 3 t (ix5 (0 : Fin 1) b c' r s)
      = PatchSpec.elt (V m c main_arg0) b c' (7 * ((grid0.coords t 0).val - 1) + ((grid0.coords t 1).val - 1)) (128 + r.val) (128 + s.val) := by
  show V m c main_arg0 (((cfg0.win 3).blk t).view.emb (ix5 (0 : Fin 1) b c' r s)) = _
  unfold PatchSpec.elt
  refine congrArg _ (funext fun a => Fin.ext ?_)
  obtain ⟨f0, f1, f2, f3, f4, f5, f6, f7, f8, f9, f10, f11, f12, f13, f14, f15, f16, f17, f18, f19, f20, f21, f22, f23⟩ := idx_facts t
  have hr := r.isLt
  have hs := s.isLt
  have hbi : (grid0.coords t 0).val < 8 := (grid0.coords t 0).isLt
  have hbj : (grid0.coords t 1).val < 8 := (grid0.coords t 1).isLt
  match a with
  | ⟨0, _⟩ => show win0_3.index t (0 : Fin 5) * 1 + 1 * 0 = min (7 * ((grid0.coords t 0).val - 1) + ((grid0.coords t 1).val - 1)) 48; omega
  | ⟨1, _⟩ => show win0_3.index t (1 : Fin 5) * 2 + 1 * b.val = b.val; omega
  | ⟨2, _⟩ => show win0_3.index t (2 : Fin 5) * 3 + 1 * c'.val = c'.val; omega
  | ⟨3, _⟩ => show win0_3.index t (3 : Fin 5) * 128 + 1 * r.val = min (128 + r.val) 255; omega
  | ⟨4, _⟩ => show win0_3.index t (4 : Fin 5) * 128 + 1 * s.val = min (128 + s.val) 255; omega

/-- The output window's block at point `t` sits at cell `(bi, bj)` of the image. -/
theorem emb_out (t : Fin cfg0.N) (b : Fin 2) (c' : Fin 3) (r s : Fin 128) :
    ((cfg0.win 4).blk t).view.emb (ix4 b c' r s)
      = ix4 b c' (⟨128 * (grid0.coords t 0).val + r.val, by have := r.isLt; have h8 : (grid0.coords t 0).val < 8 := (grid0.coords t 0).isLt; omega⟩ : Fin 1024)
          (⟨128 * (grid0.coords t 1).val + s.val, by have := s.isLt; have h8 : (grid0.coords t 1).val < 8 := (grid0.coords t 1).isLt; omega⟩ : Fin 1024) := by
  refine funext fun a => Fin.ext ?_
  obtain ⟨f0, f1, f2, f3, f4, f5, f6, f7, f8, f9, f10, f11, f12, f13, f14, f15, f16, f17, f18, f19, f20, f21, f22, f23⟩ := idx_facts t
  match a with
  | ⟨0, _⟩ => show win0_4.index t (0 : Fin 4) * 2 + 1 * b.val = b.val; omega
  | ⟨1, _⟩ => show win0_4.index t (1 : Fin 4) * 3 + 1 * c'.val = c'.val; omega
  | ⟨2, _⟩ => show win0_4.index t (2 : Fin 4) * 128 + 1 * r.val = 128 * (grid0.coords t 0).val + r.val; omega
  | ⟨3, _⟩ => show win0_4.index t (3 : Fin 4) * 128 + 1 * s.val = 128 * (grid0.coords t 1).val + s.val; omega

/-! ## What each point writes back, and the result array -/

/-- What point `t` writes back is block `t` of the whole-image function of the argument as the region finds it. -/
theorem flushed_eq (c : Dev nD) (t : Fin cfg0.N) :
    (dats m 0 c).flushed 4 t = ((cfg0.win 4).blk t).view.read (Elt Ideal) (PatchSpec.G (V m c main_arg0)) := by
  show (cfg0.win 4).cut (grid0.coords t) ((dats m 0 c).after 4 t) = _
  rw [after0_4]
  unfold outBlock
  rw [View.canon_unit_zero hz4]
  simp only [View.ld_unit_zero (S := S1x2x3x128x128) hz5]
  funext j
  obtain ⟨b, c', r, s, rfl⟩ : ∃ (b : Fin 2) (c' : Fin 3) (r s : Fin 128), j = ix4 b c' r s := ⟨j 0, j 1, j 2, j 3, eq_ix4 j⟩
  show k0_pay1 (F := Ideal) (grid0.coords t) (iblk m c 0 t) (iblk m c 1 t) (iblk m c 2 t) (iblk m c 3 t) (ix4 b c' r s)
    = PatchSpec.G (V m c main_arg0) (((cfg0.win 4).blk t).view.emb (ix4 b c' r s))
  rw [pay_apply, emb_out, PatchSpec.G_block _ _ _ _ _ (grid0.coords t 0).isLt (grid0.coords t 1).isLt,
    cast_apply, cast_apply, cast_apply, cast_apply, read_in0, read_in1, read_in2, read_in3]

/-- An index of the image is in point `t`'s block iff each coordinate is in the block's range on its axis. -/
theorem mem_blk (t : Fin cfg0.N) (i : S2x3x1024x1024.Idx) :
    i ∈ ((cfg0.win 4).blk t).view.set ↔ ∀ a : Fin 4, win0_4.index t a * S2x3x128x128.size a ≤ (i a).val ∧ (i a).val < win0_4.index t a * S2x3x128x128.size a + S2x3x128x128.size a := by
  show i ∈ ((View.whole main_v0).slice (win0_4.rect t)).set ↔ _
  rw [View.set_slice_whole, Rect.mem_set_unit]
  exact Iff.rfl

/-- The 8 × 8 cells tile the image: every index is in the block of the point of its cell `(h / 128, w / 128)`. -/
theorem cover (i : S2x3x1024x1024.Idx) :
    ∃ t : Fin cfg0.N, (cfg0.win 4).flush t = true ∧ i ∈ ((cfg0.win 4).blk t).view.set := by
  have hi0 : (i 0).val < 2 := (i 0).isLt
  have hi1 : (i 1).val < 3 := (i 1).isLt
  have hi2 : (i 2).val < 1024 := (i 2).isLt
  have hi3 : (i 3).val < 1024 := (i 3).isLt
  obtain ⟨t, ht⟩ := idx_onto ⟨(i 2).val / 128, by omega⟩ ⟨(i 3).val / 128, by omega⟩
  have q0 : win0_4.index t (0 : Fin 4) = 0 := congrFun ht 0
  have q1 : win0_4.index t (1 : Fin 4) = 0 := congrFun ht 1
  have q2 : win0_4.index t (2 : Fin 4) = (i 2).val / 128 := congrFun ht 2
  have q3 : win0_4.index t (3 : Fin 4) = (i 3).val / 128 := congrFun ht 3
  refine ⟨t, flush0_4 t, ?_⟩
  rw [mem_blk]
  intro a
  match a with
  | ⟨0, _⟩ => show win0_4.index t (0 : Fin 4) * 2 ≤ (i 0).val ∧ (i 0).val < win0_4.index t (0 : Fin 4) * 2 + 2; omega
  | ⟨1, _⟩ => show win0_4.index t (1 : Fin 4) * 3 ≤ (i 1).val ∧ (i 1).val < win0_4.index t (1 : Fin 4) * 3 + 3; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- The result array after the run is the whole-image function of the argument as launched. -/
theorem final (c : Dev nD) : (dats m 0 c).arrAt 4 cfg0.N = PatchSpec.G (m ((c : Thread nD τ).loc main_arg0)) :=
  (dats m 0 c).arrAt_eq_of_cover 4 (PatchSpec.G (V m c main_arg0)) (fun t _ => flushed_eq m c t) cover

/-- The run, read: the result at the whole-image function of the argument, the argument unchanged. -/
theorem run : θ_run defs (onTc (τ := τ) (main (F := Ideal))) ⟨m, fun _ => 0, ρ⟩ fun r => ∀ c : Dev nD,
      r.2.mem ((c : Thread nD τ).loc main_v0) = PatchSpec.G (m ((c : Thread nD τ).loc main_arg0))
      ∧ r.2.mem ((c : Thread nD τ).loc main_arg0) = m ((c : Thread nD τ).loc main_arg0) :=
  (θ_run defs _ _).mono (fun r h c => ⟨((h c) 4).trans (final m c),
      ((h c) 0).trans (((dats m 0 c).arrAt_in 0 rfl _).trans (A_eq m c 0))⟩)
    (run_main m ρ)

end Cert.KernelIdeal.PatchValue

end
-- ==== Proof.LibColumnPick.lean ====
/-
  COLUMN PICKS: reading every second column of a two-axis array with `stablehlo.gather`, and writing columns back at
  every second position with `stablehlo.scatter`, each read at one index. Program-free: only the library's operations.

  The index vector `par + 2 * iota` reads `2k + par` at `k`; the usual negative-index normalisation is the identity on
  it; as a one-column array it keeps its entries. A gather whose start indices are such a column reads the operand's
  column named by the index. A scatter (the body returning the update) whose indices are `2k + par` writes update column
  `k` to result column `2k + par` and leaves the columns of the other parity. The scatter is a left fold of one-element
  updates; below it is read at an index through a general fact on such folds.
-/
import Idealize.ShloMosaic.PureOps.Ideal
import Idealize.ShloMosaic.Lib.ValueIdx
import Idealize.ShloMosaic.Lib.Pipeline.Value

namespace Cert.Lib.ColumnPick

open Idealize.ShloMosaic Idealize.ShloMosaic.ValueIdx

/-! ## Small 32-bit words read as signed integers -/

/-- A natural number below `2^31`, as a 32-bit word read signed, is itself. -/
theorem toInt_ofNat_lt (c : Nat) (h : c < 2147483648) : (BitVec.ofNat 32 c).toInt = (c : Int) := by
  rw [BitVec.toInt_eq_toNat_cond, BitVec.toNat_ofNat]
  have hc : c % 2 ^ 32 = c := Nat.mod_eq_of_lt (by omega)
  rw [hc]
  split <;> omega

/-- A natural number below `2^31`, as a 32-bit word, is not signed-less-than zero. -/
theorem slt_zero_ofNat_lt (c : Nat) (h : c < 2147483648) : (BitVec.ofNat 32 c).slt 0#32 = false := by
  have := toInt_ofNat_lt c h
  simp [BitVec.slt, this]

/-! ## The index vector `par + 2 * iota` -/

/-- The vector `par + 2 * iota` over `4096` positions reads `2k + par` at position `k` (as 32-bit words, where sum and
    product are those of the naturals taken modulo `2^32`). -/
theorem evenOdd_apply (par : Nat) (h0 : (⟨0, ![]⟩ : Shape).BroadcastsInDim ⟨1, ![4096]⟩ ![]) (k : Fin 4096) :
    addi (broadcastInDim ⟨1, ![4096]⟩ ![] h0 (constantI ⟨0, ![]⟩ 32 (BitVec.ofNat 32 par)))
        (muli (broadcastInDim ⟨1, ![4096]⟩ ![] h0 (constantI ⟨0, ![]⟩ 32 2#32)) (iotaInDim ⟨1, ![4096]⟩ 32 0)) (ix1 k)
      = BitVec.ofNat 32 (2 * k.val + par) := by
  show BitVec.ofNat 32 par + BitVec.ofNat 32 2 * BitVec.ofNat 32 k.val = _
  rw [← BitVec.ofNat_mul, ← BitVec.ofNat_add, Nat.add_comm]

/-- The negative-index normalisation `if v < 0 then v + 8192 else v` is the identity on a vector whose entries are
    natural numbers below `8192`: such a word is not negative. -/
theorem normalizeIdx_eq (h0 : (⟨0, ![]⟩ : Shape).BroadcastsInDim ⟨1, ![4096]⟩ ![]) (v : IVec ⟨1, ![4096]⟩ 32)
    (c : Fin 4096 → Nat) (hc : ∀ k, c k < 8192) (hv : ∀ k, v (ix1 k) = BitVec.ofNat 32 (c k)) :
    select (cmpi .slt v (broadcastInDim ⟨1, ![4096]⟩ ![] h0 (constantI ⟨0, ![]⟩ 32 0#32)))
        (addi v (broadcastInDim ⟨1, ![4096]⟩ ![] h0 (constantI ⟨0, ![]⟩ 32 8192#32))) v = v := by
  funext j
  obtain ⟨k, rfl⟩ : ∃ k, j = ix1 k := ⟨j 0, eq_ix1 j⟩
  show Scalar.select (BitVec.ofBool ((v (ix1 k)).slt 0#32)) _ (v (ix1 k)) = v (ix1 k)
  rw [hv k, slt_zero_ofNat_lt (c k) (by have := hc k; omega)]
  exact select_zero _ _

/-- A vector laid out as a one-column array keeps its entries: row `k` of the column is entry `k`. -/
theorem column_apply {α : Type} (h1 : (⟨1, ![4096]⟩ : Shape).BroadcastsInDim ⟨2, ![4096, 1]⟩ ![0])
    (v : (⟨1, ![4096]⟩ : Shape).Idx → α) (k : Fin 4096) :
    broadcastInDim ⟨2, ![4096, 1]⟩ ![0] h1 v (ix2 k 0) = v (ix1 k) := by
  show v _ = v _
  congr 1
  funext a
  match a with
  | ⟨0, _⟩ => rfl

/-! ## A left fold of one-position updates, read at a position -/

section Fold
variable {ι κ α : Type*}

/-- A left fold whose steps each leave position `i'` as it was leaves it as it was. -/
theorem foldl_apply_of_miss (step : (κ → α) → ι → κ → α) (i' : κ) (l : List ι)
    (hmiss : ∀ m ∈ l, ∀ r, step r m i' = r i') (x : κ → α) : l.foldl step x i' = x i' := by
  induction l generalizing x with
  | nil => rfl
  | cons m l ih =>
    rw [List.foldl_cons, ih (fun m' hm' => hmiss m' (List.mem_cons_of_mem _ hm')), hmiss m List.mem_cons_self]

/-- A left fold over a list without repeats in which exactly one step `n` changes position `i'`, to `v` of what it held,
    ends with `v` of the initial value there: the steps before `n` leave the position alone, and so do the steps after. -/
theorem foldl_apply_of_hit (step : (κ → α) → ι → κ → α) (i' : κ) (v : α → α) (n : ι) (l : List ι) (hl : l.Nodup)
    (hn : n ∈ l) (hhit : ∀ r, step r n i' = v (r i')) (hmiss : ∀ m ∈ l, m ≠ n → ∀ r, step r m i' = r i') (x : κ → α) :
    l.foldl step x i' = v (x i') := by
  induction l generalizing x with
  | nil => exact absurd hn List.not_mem_nil
  | cons m l ih =>
    rw [List.foldl_cons]
    obtain ⟨hml, hl'⟩ := List.nodup_cons.1 hl
    rcases List.mem_cons.1 hn with rfl | hn'
    · rw [foldl_apply_of_miss step i' l (fun m' hm' => hmiss m' (List.mem_cons_of_mem _ hm')
        (fun h => hml (h ▸ hm'))), hhit]
    · have hmn : m ≠ n := fun h => hml (h ▸ hn')
      rw [ih hl' hn' (fun m' hm' => hmiss m' (List.mem_cons_of_mem _ hm')), hmiss m List.mem_cons_self hmn]

end Fold

/-! ## `stablehlo.gather` of columns, read at an index

The operand is `[2048, 8192]`, the start indices a one-column array `[4096, 1]` (the index vector's axis is the second),
each naming ONE operand column; the slice is a whole column (`[2048, 1]`, its second axis collapsed), so result element
`(b, k)` is operand element `(b, idx[k, 0])`. A start index is read signed and clamped into `[0, 8191]`; below `8192` it
is itself. -/

section Gather
variable {α : Type}

/-- Those dimension numbers as a literal record; their conditions `wf` are decided on a program's literal shapes. -/
abbrev colDims (wf : GatherDims.WF ⟨2, ![2048, 8192]⟩ ⟨2, ![4096, 1]⟩ ⟨2, ![2048, 4096]⟩ [0] [1] [] [1] [] 1 ![2048, 1]) :
    GatherDims ⟨2, ![2048, 8192]⟩ ⟨2, ![4096, 1]⟩ ⟨2, ![2048, 4096]⟩ where
  offsetDims := [0]
  collapsedSliceDims := [1]
  operandBatchingDims := []
  startIndicesBatchingDims := []
  startIndexMap := [1]
  indexVectorDim := 1
  sliceSizes := ![2048, 1]
  wf := wf

/-- The column gather at `(b, k)` with the literal record: the operand at row `b`, column `idx[k, 0]`. -/
theorem gather_colDims_apply
    (wf : GatherDims.WF ⟨2, ![2048, 8192]⟩ ⟨2, ![4096, 1]⟩ ⟨2, ![2048, 4096]⟩ [0] [1] [] [1] [] 1 ![2048, 1])
    (x : (⟨2, ![2048, 8192]⟩ : Shape).Idx → α) (idx : IVec ⟨2, ![4096, 1]⟩ 32) (c : Fin 4096 → Nat)
    (hc : ∀ k, c k < 8192) (hidx : ∀ k, idx (ix2 k 0) = BitVec.ofNat 32 (c k)) (b : Fin 2048) (k : Fin 4096) :
    Host.gather (colDims wf) x idx (ix2 b k) = x (ix2 b ⟨c k, hc k⟩) := by
  unfold Host.gather
  congr 1
  funext a
  refine Fin.ext ?_
  match a with
  | ⟨0, _⟩ =>
    show (colDims wf).start (ix2 b k) idx 0 + (colDims wf).batchCoord (ix2 b k) 0 + (colDims wf).offCoord (ix2 b k) 0 = b.val
    rw [GatherDims.batchCoord_eq_zero _ _ _ List.not_mem_nil]
    have hs : (colDims wf).start (ix2 b k) idx 0 = 0 := by
      unfold GatherDims.start
      rw [dif_neg (show (0 : Fin 2) ∉ (colDims wf).startIndexMap from
        fun h => absurd (List.mem_singleton.mp h) (show ¬ (0 : Fin 2) = 1 by decide))]
    have ho : (colDims wf).offCoord (ix2 b k) 0 = b.val := by
      unfold GatherDims.offCoord
      rw [dif_pos (show (0 : Fin 2) ∈ (colDims wf).sKept from (GatherDims.mem_sKept _ _).mpr
        ⟨fun h => absurd (List.mem_singleton.mp h) (show ¬ (0 : Fin 2) = 1 by decide), List.not_mem_nil⟩)]
      rfl
    rw [hs, ho]
    omega
  | ⟨1, _⟩ =>
    show (colDims wf).start (ix2 b k) idx 1 + (colDims wf).batchCoord (ix2 b k) 1 + (colDims wf).offCoord (ix2 b k) 1 = c k
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims wf).startIndexMap from List.mem_singleton.mpr rfl)]
    have hsi : (colDims wf).siIdx (ix2 b k) ⟨List.idxOf (1 : Fin 2) (colDims wf).startIndexMap,
        List.idxOf_lt_length_iff.2 (List.mem_singleton.mpr rfl)⟩ = ix2 k 0 := by
      funext a'; refine Fin.ext ?_
      match a' with
      | ⟨0, _⟩ => rfl
      | ⟨1, _⟩ => rfl
    rw [hsi, hidx k, toInt_ofNat_lt (c k) (by have := hc k; omega)]
    show min ((c k : Int).toNat) (8192 - 1) = c k
    have := hc k
    rw [Int.toNat_natCast]
    omega

/-- THE COLUMN GATHER READ AT `(b, k)`: for dimension numbers with offset axis `0`, collapsed operand axis `1`, no
    batching axes, the start index naming operand axis `1`, the index vector on the start indices' axis `1` and whole
    columns as slices, and start indices `idx[k, 0] = c k` below `8192`, the result at `(b, k)` is the operand at
    `(b, c k)`. -/
theorem gather_column_apply (d : GatherDims ⟨2, ![2048, 8192]⟩ ⟨2, ![4096, 1]⟩ ⟨2, ![2048, 4096]⟩)
    (hod : d.offsetDims = [0]) (hcd : d.collapsedSliceDims = [1]) (hob : d.operandBatchingDims = [])
    (hsb : d.startIndicesBatchingDims = []) (hsm : d.startIndexMap = [1]) (hiv : d.indexVectorDim = 1)
    (hss : d.sliceSizes = ![2048, 1])
    (x : (⟨2, ![2048, 8192]⟩ : Shape).Idx → α) (idx : IVec ⟨2, ![4096, 1]⟩ 32) (c : Fin 4096 → Nat)
    (hc : ∀ k, c k < 8192) (hidx : ∀ k, idx (ix2 k 0) = BitVec.ofNat 32 (c k)) (b : Fin 2048) (k : Fin 4096) :
    Host.gather d x idx (ix2 b k) = x (ix2 b ⟨c k, hc k⟩) := by
  obtain ⟨od, cd, ob, sb, sm, iv, ss, wf⟩ := d
  simp only at hod hcd hob hsb hsm hiv hss
  subst hod hcd hob hsb hsm hiv hss
  exact gather_colDims_apply wf x idx c hc hidx b k

end Gather

/-! ## `stablehlo.scatter` read at an index

The scatter is the left fold, over the update indices in row-major order, of the step that replaces the result's
element at the update's result index. Where the in-bounds result indices are pairwise distinct, each position of the
result is changed by at most one step, so it holds the body applied to the operand's element and that one update, or the
operand's element when no update lands on it. -/

section ScatterFold
variable {α : Type} {s si u : Shape} {w : Nat}

/-- A position no update's result index names keeps the operand's element. -/
theorem scatter_apply_of_miss (d : ScatterDims s si u) (f : α → α → α) (x : s.Idx → α) (idx : IVec si w)
    (upd : u.Idx → α) (i : s.Idx) (hmiss : ∀ j, d.resultIdx? j idx ≠ some i) : Host.scatter d f x idx upd i = x i := by
  unfold Host.scatter
  apply foldl_apply_of_miss
  intro m _ r
  rcases h : d.resultIdx? (u.rowMajor.symm m) idx with _ | i2
  · rfl
  · have hne : i ≠ i2 := fun e => hmiss _ (e ▸ h)
    show (if i = i2 then f (r i2) (upd (u.rowMajor.symm m)) else r i) = r i
    exact if_neg hne

/-- A position that exactly one update index `j` names holds the body applied to the operand's element there and
    update `j`. -/
theorem scatter_apply_of_hit (d : ScatterDims s si u) (f : α → α → α) (x : s.Idx → α) (idx : IVec si w)
    (upd : u.Idx → α) (j : u.Idx) (i : s.Idx) (hj : d.resultIdx? j idx = some i)
    (hinj : ∀ j', d.resultIdx? j' idx = some i → j' = j) : Host.scatter d f x idx upd i = f (x i) (upd j) := by
  unfold Host.scatter
  refine foldl_apply_of_hit _ i (fun a => f a (upd j)) (u.rowMajor j) _ (List.nodup_finRange _) (List.mem_finRange _)
    ?_ ?_ x
  · intro r
    rw [Equiv.symm_apply_apply, hj]
    show (if i = i then f (r i) (upd j) else r i) = f (r i) (upd j)
    exact if_pos rfl
  · intro m _ hm r
    rcases h : d.resultIdx? (u.rowMajor.symm m) idx with _ | i2
    · rfl
    · show (if i = i2 then f (r i2) (upd (u.rowMajor.symm m)) else r i) = r i
      refine if_neg fun e => hm ?_
      subst e
      have := hinj _ h
      rw [← this, Equiv.apply_symm_apply]

end ScatterFold

/-! ## `stablehlo.scatter` of columns at every second position, read at an index

The operand is `[2048, 8192]`, the scatter indices a one-column array `[4096, 1]` each naming ONE operand column, the
updates `[2048, 4096]`: update column `k` (a window over the rows) is written to operand column `idx[k, 0]`. With
`idx[k, 0] = 2k + par` the columns written are those of parity `par`, each once. -/

section Scatter
variable {α : Type}

/-- Those dimension numbers as a literal record; their conditions `wf` are decided on a program's literal shapes. -/
abbrev scatDims (wf : ScatterDims.WF ⟨2, ![2048, 8192]⟩ ⟨2, ![4096, 1]⟩ ⟨2, ![2048, 4096]⟩ [0] [1] [1] 1) :
    ScatterDims ⟨2, ![2048, 8192]⟩ ⟨2, ![4096, 1]⟩ ⟨2, ![2048, 4096]⟩ where
  updateWindowDims := [0]
  insertedWindowDims := [1]
  scatterDimsToOperandDims := [1]
  indexVectorDim := 1
  wf := wf

/-- The result index of update `(b, k)`: row `b` (the window coordinate; the start is `0` on the row axis), column
    `idx[k, 0]` (the start, read signed: a natural number below `8192` is itself; the window coordinate is `0` on the
    inserted axis). It is inside the operand. -/
theorem resultIdx_scatDims (wf : ScatterDims.WF ⟨2, ![2048, 8192]⟩ ⟨2, ![4096, 1]⟩ ⟨2, ![2048, 4096]⟩ [0] [1] [1] 1)
    (idx : IVec ⟨2, ![4096, 1]⟩ 32) (c : Fin 4096 → Nat) (hc : ∀ k, c k < 8192)
    (hidx : ∀ k, idx (ix2 k 0) = BitVec.ofNat 32 (c k)) (b : Fin 2048) (k : Fin 4096) :
    (scatDims wf).resultIdx? (ix2 b k) idx = some (ix2 b ⟨c k, hc k⟩) := by
  have hs0 : (scatDims wf).start (ix2 b k) idx 0 = 0 := by
    unfold ScatterDims.start
    rw [dif_neg (show (0 : Fin 2) ∉ (scatDims wf).scatterDimsToOperandDims from
      fun h => absurd (List.mem_singleton.mp h) (show ¬ (0 : Fin 2) = 1 by decide))]
  have hs1 : (scatDims wf).start (ix2 b k) idx 1 = (c k : Int) := by
    unfold ScatterDims.start
    rw [dif_pos (show (1 : Fin 2) ∈ (scatDims wf).scatterDimsToOperandDims from List.mem_singleton.mpr rfl)]
    have hsi : (scatDims wf).siIdx (ix2 b k) ⟨List.idxOf (1 : Fin 2) (scatDims wf).scatterDimsToOperandDims,
        List.idxOf_lt_length_iff.2 (List.mem_singleton.mpr rfl)⟩ = ix2 k 0 := by
      funext a'; refine Fin.ext ?_
      match a' with
      | ⟨0, _⟩ => rfl
      | ⟨1, _⟩ => rfl
    rw [hsi, hidx k, toInt_ofNat_lt (c k) (by have := hc k; omega)]
  have hw0 : (scatDims wf).window (ix2 b k) 0 = b.val := by
    unfold ScatterDims.window
    rw [dif_pos (show (0 : Fin 2) ∈ (⟨2, ![2048, 8192]⟩ : Shape).kept [1] from by decide)]
    rfl
  have hw1 : (scatDims wf).window (ix2 b k) 1 = 0 := by
    unfold ScatterDims.window
    rw [dif_neg (show (1 : Fin 2) ∉ (⟨2, ![2048, 8192]⟩ : Shape).kept [1] from by decide)]
  unfold ScatterDims.resultIdx?
  split
  · next h =>
    congr 1
    funext a
    refine Fin.ext ?_
    match a with
    | ⟨0, _⟩ =>
      show ((scatDims wf).start (ix2 b k) idx 0 + ((scatDims wf).window (ix2 b k) 0 : Int)).toNat = b.val
      rw [hs0, hw0]; simp
    | ⟨1, _⟩ =>
      show ((scatDims wf).start (ix2 b k) idx 1 + ((scatDims wf).window (ix2 b k) 1 : Int)).toNat = c k
      rw [hs1, hw1]; simp
  · next h =>
    refine absurd (fun a => ?_) h
    match a with
    | ⟨0, _⟩ =>
      show 0 ≤ (scatDims wf).start (ix2 b k) idx 0 + ((scatDims wf).window (ix2 b k) 0 : Int) ∧
        (scatDims wf).start (ix2 b k) idx 0 + ((scatDims wf).window (ix2 b k) 0 : Int) < ((2048 : Nat) : Int)
      rw [hs0, hw0]; have := b.isLt; omega
    | ⟨1, _⟩ =>
      show 0 ≤ (scatDims wf).start (ix2 b k) idx 1 + ((scatDims wf).window (ix2 b k) 1 : Int) ∧
        (scatDims wf).start (ix2 b k) idx 1 + ((scatDims wf).window (ix2 b k) 1 : Int) < ((8192 : Nat) : Int)
      rw [hs1, hw1]; have := hc k; omega

/-- The column scatter at `(b, col)` with the literal record. -/
theorem scatter_scatDims_apply
    (wf : ScatterDims.WF ⟨2, ![2048, 8192]⟩ ⟨2, ![4096, 1]⟩ ⟨2, ![2048, 4096]⟩ [0] [1] [1] 1)
    (x : (⟨2, ![2048, 8192]⟩ : Shape).Idx → α) (upd : (⟨2, ![2048, 4096]⟩ : Shape).Idx → α)
    (idx : IVec ⟨2, ![4096, 1]⟩ 32) (par : Nat) (hpar : par < 2)
    (hidx : ∀ k : Fin 4096, idx (ix2 k 0) = BitVec.ofNat 32 (2 * k.val + par)) (b : Fin 2048) (col : Fin 8192) :
    Host.scatter (scatDims wf) (fun _ v => v) x idx upd (ix2 b col)
      = if col.val % 2 = par then upd (ix2 b ⟨col.val / 2, by have := col.isLt; omega⟩) else x (ix2 b col) := by
  have hc : ∀ k : Fin 4096, 2 * k.val + par < 8192 := fun k => by have := k.isLt; omega
  have hres : ∀ (b' : Fin 2048) (k' : Fin 4096),
      (scatDims wf).resultIdx? (ix2 b' k') idx = some (ix2 b' ⟨2 * k'.val + par, hc k'⟩) :=
    fun b' k' => resultIdx_scatDims wf idx (fun k => 2 * k.val + par) hc hidx b' k'
  have hcol := col.isLt
  split
  · next hp =>
    have hk : col.val / 2 < 4096 := by omega
    refine scatter_apply_of_hit (scatDims wf) _ x idx upd (ix2 b ⟨col.val / 2, hk⟩) (ix2 b col) ?_ ?_
    · rw [hres]
      congr 2
      refine Fin.ext ?_
      show 2 * (col.val / 2) + par = col.val
      omega
    · intro j' hj'
      obtain ⟨b', k', rfl⟩ : ∃ b' k', j' = ix2 b' k' := ⟨j' 0, j' 1, eq_ix2 j'⟩
      rw [hres] at hj'
      have e := Option.some.inj hj'
      have e0 : b' = b := congrFun e 0
      have e1 : 2 * k'.val + par = col.val := congrArg Fin.val (congrFun e 1)
      subst e0
      congr 1
      refine Fin.ext ?_
      show k'.val = col.val / 2
      omega
  · next hp =>
    refine scatter_apply_of_miss (scatDims wf) _ x idx upd (ix2 b col) fun j' hj' => hp ?_
    obtain ⟨b', k', rfl⟩ : ∃ b' k', j' = ix2 b' k' := ⟨j' 0, j' 1, eq_ix2 j'⟩
    rw [hres] at hj'
    have e := Option.some.inj hj'
    have e1 : 2 * k'.val + par = col.val := congrArg Fin.val (congrFun e 1)
    omega

/-- THE COLUMN SCATTER READ AT `(b, col)`: for dimension numbers with the updates' window axis `0`, the operand's
    inserted axis `1`, the scatter index naming operand axis `1`, the index vector on the scatter indices' axis `1`,
    the body returning the update, and scatter indices `idx[k, 0] = 2k + par` (`par` is `0` or `1`): a column of parity
    `par` holds the update's column `col / 2`, a column of the other parity the operand's. -/
theorem scatter_column_apply (d : ScatterDims ⟨2, ![2048, 8192]⟩ ⟨2, ![4096, 1]⟩ ⟨2, ![2048, 4096]⟩)
    (huw : d.updateWindowDims = [0]) (hiw : d.insertedWindowDims = [1]) (hsd : d.scatterDimsToOperandDims = [1])
    (hiv : d.indexVectorDim = 1)
    (x : (⟨2, ![2048, 8192]⟩ : Shape).Idx → α) (upd : (⟨2, ![2048, 4096]⟩ : Shape).Idx → α)
    (idx : IVec ⟨2, ![4096, 1]⟩ 32) (par : Nat) (hpar : par < 2)
    (hidx : ∀ k : Fin 4096, idx (ix2 k 0) = BitVec.ofNat 32 (2 * k.val + par)) (b : Fin 2048) (col : Fin 8192) :
    Host.scatter d (fun _ v => v) x idx upd (ix2 b col)
      = if col.val % 2 = par then upd (ix2 b ⟨col.val / 2, by have := col.isLt; omega⟩) else x (ix2 b col) := by
  obtain ⟨uw, iw, sd, iv, wf⟩ := d
  simp only at huw hiw hsd hiv
  subst huw hiw hsd hiv
  exact scatter_scatDims_apply wf x upd idx par hpar hidx b col

end Scatter

end Cert.Lib.ColumnPick
-- ==== Proof.PatchUpdate.lean ====
/-
  ONE STEP OF THE REFERENCE, READ AT AN INDEX. The reference holds a [2, 3, 1024, 1024] image, starts it at −∞ and, patch
  by patch, replaces the 256 × 256 window at offset (hs, ws) of the last two axes by the pointwise maximum of the window
  and the patch. The window is written by a scatter with ONE start index (hs, ws): update element (b, c, p, q) lands at
  (b, c, hs + p, ws + q), all inside the image, distinct updates at distinct places. So after the step an image element
  inside the window holds the maximum of what it held and the patch's element at the window coordinates, and an element
  outside holds what it held. Program-free: only the library's operations, over the literal shapes.
-/
import Idealize.ShloMosaic.PureOps.Ideal
import Idealize.ShloMosaic.Lib.ValueIdx
import Idealize.ShloMosaic.Lib.Pipeline.Value
import proofs.«152043_j16088947491442_1_alg».proof.Proof.LibColumnPick

namespace Cert.PatchUpdate

open Idealize.ShloMosaic Idealize.ShloMosaic.ValueIdx Cert.Lib.ColumnPick

abbrev SImg : Shape := ⟨4, ![2, 3, 1024, 1024]⟩
abbrev SWin : Shape := ⟨4, ![2, 3, 256, 256]⟩
abbrev SPair : Shape := ⟨1, ![2]⟩
abbrev SArg : Shape := ⟨5, ![49, 2, 3, 256, 256]⟩
abbrev SOne : Shape := ⟨5, ![1, 2, 3, 256, 256]⟩

section Scatter
variable {α : Type}

/-- The step's dimension numbers as a literal record: every update axis a window axis, no inserted axis, the start index's
    two components naming image axes 2 and 3, the index vector on the start indices' only axis. -/
abbrev winDims (wf : ScatterDims.WF SImg SPair SWin [0, 1, 2, 3] [] [2, 3] 0) : ScatterDims SImg SPair SWin where
  updateWindowDims := [0, 1, 2, 3]
  insertedWindowDims := []
  scatterDimsToOperandDims := [2, 3]
  indexVectorDim := 0
  wf := wf

/-- Update element `(b, c, p, q)` lands at `(b, c, hs + p, ws + q)`, inside the image. -/
theorem resultIdx_winDims (wf : ScatterDims.WF SImg SPair SWin [0, 1, 2, 3] [] [2, 3] 0) (idx : IVec SPair 32)
    (hs ws : Nat) (hhs : hs + 256 ≤ 1024) (hws : ws + 256 ≤ 1024)
    (h0 : idx (ix1 0) = BitVec.ofNat 32 hs) (h1 : idx (ix1 1) = BitVec.ofNat 32 ws)
    (b : Fin 2) (c : Fin 3) (p q : Fin 256) :
    (winDims wf).resultIdx? (ix4 b c p q) idx
      = some (ix4 b c ⟨hs + p.val, by have := p.isLt; omega⟩ ⟨ws + q.val, by have := q.isLt; omega⟩) := by
  have hs0 : (winDims wf).start (ix4 b c p q) idx 0 = 0 := by
    unfold ScatterDims.start
    rw [dif_neg (show (0 : Fin 4) ∉ ([2, 3] : List (Fin 4)) from by decide)]
  have hs1 : (winDims wf).start (ix4 b c p q) idx 1 = 0 := by
    unfold ScatterDims.start
    rw [dif_neg (show (1 : Fin 4) ∉ ([2, 3] : List (Fin 4)) from by decide)]
  have hs2 : (winDims wf).start (ix4 b c p q) idx 2 = (hs : Int) := by
    unfold ScatterDims.start
    rw [dif_pos (show (2 : Fin 4) ∈ ([2, 3] : List (Fin 4)) from by decide)]
    have hsi : (winDims wf).siIdx (ix4 b c p q) ⟨List.idxOf (2 : Fin 4) (winDims wf).scatterDimsToOperandDims,
        List.idxOf_lt_length_iff.2 (show _ ∈ ([2, 3] : List (Fin 4)) from by decide)⟩ = ix1 0 := by
      funext a'; refine Fin.ext ?_
      match a' with
      | ⟨0, _⟩ => rfl
    rw [hsi, h0, toInt_ofNat_lt hs (by omega)]
  have hs3 : (winDims wf).start (ix4 b c p q) idx 3 = (ws : Int) := by
    unfold ScatterDims.start
    rw [dif_pos (show (3 : Fin 4) ∈ ([2, 3] : List (Fin 4)) from by decide)]
    have hsi : (winDims wf).siIdx (ix4 b c p q) ⟨List.idxOf (3 : Fin 4) (winDims wf).scatterDimsToOperandDims,
        List.idxOf_lt_length_iff.2 (show _ ∈ ([2, 3] : List (Fin 4)) from by decide)⟩ = ix1 1 := by
      funext a'; refine Fin.ext ?_
      match a' with
      | ⟨0, _⟩ => rfl
    rw [hsi, h1, toInt_ofNat_lt ws (by omega)]
  have hw0 : (winDims wf).window (ix4 b c p q) 0 = b.val := by
    unfold ScatterDims.window
    rw [dif_pos (show (0 : Fin 4) ∈ SImg.kept [] from by decide)]
    rfl
  have hw1 : (winDims wf).window (ix4 b c p q) 1 = c.val := by
    unfold ScatterDims.window
    rw [dif_pos (show (1 : Fin 4) ∈ SImg.kept [] from by decide)]
    rfl
  have hw2 : (winDims wf).window (ix4 b c p q) 2 = p.val := by
    unfold ScatterDims.window
    rw [dif_pos (show (2 : Fin 4) ∈ SImg.kept [] from by decide)]
    rfl
  have hw3 : (winDims wf).window (ix4 b c p q) 3 = q.val := by
    unfold ScatterDims.window
    rw [dif_pos (show (3 : Fin 4) ∈ SImg.kept [] from by decide)]
    rfl
  have hp := p.isLt
  have hq := q.isLt
  unfold ScatterDims.resultIdx?
  split
  · next h =>
    congr 1
    funext a
    refine Fin.ext ?_
    match a with
    | ⟨0, _⟩ =>
      show ((winDims wf).start (ix4 b c p q) idx 0 + ((winDims wf).window (ix4 b c p q) 0 : Int)).toNat = b.val
      rw [hs0, hw0]; simp
    | ⟨1, _⟩ =>
      show ((winDims wf).start (ix4 b c p q) idx 1 + ((winDims wf).window (ix4 b c p q) 1 : Int)).toNat = c.val
      rw [hs1, hw1]; simp
    | ⟨2, _⟩ =>
      show ((winDims wf).start (ix4 b c p q) idx 2 + ((winDims wf).window (ix4 b c p q) 2 : Int)).toNat = hs + p.val
      rw [hs2, hw2]; omega
    | ⟨3, _⟩ =>
      show ((winDims wf).start (ix4 b c p q) idx 3 + ((winDims wf).window (ix4 b c p q) 3 : Int)).toNat = ws + q.val
      rw [hs3, hw3]; omega
  · next h =>
    refine absurd (fun a => ?_) h
    match a with
    | ⟨0, _⟩ =>
      show 0 ≤ (winDims wf).start (ix4 b c p q) idx 0 + ((winDims wf).window (ix4 b c p q) 0 : Int) ∧
        (winDims wf).start (ix4 b c p q) idx 0 + ((winDims wf).window (ix4 b c p q) 0 : Int) < ((2 : Nat) : Int)
      rw [hs0, hw0]; have := b.isLt; omega
    | ⟨1, _⟩ =>
      show 0 ≤ (winDims wf).start (ix4 b c p q) idx 1 + ((winDims wf).window (ix4 b c p q) 1 : Int) ∧
        (winDims wf).start (ix4 b c p q) idx 1 + ((winDims wf).window (ix4 b c p q) 1 : Int) < ((3 : Nat) : Int)
      rw [hs1, hw1]; have := c.isLt; omega
    | ⟨2, _⟩ =>
      show 0 ≤ (winDims wf).start (ix4 b c p q) idx 2 + ((winDims wf).window (ix4 b c p q) 2 : Int) ∧
        (winDims wf).start (ix4 b c p q) idx 2 + ((winDims wf).window (ix4 b c p q) 2 : Int) < ((1024 : Nat) : Int)
      rw [hs2, hw2]; omega
    | ⟨3, _⟩ =>
      show 0 ≤ (winDims wf).start (ix4 b c p q) idx 3 + ((winDims wf).window (ix4 b c p q) 3 : Int) ∧
        (winDims wf).start (ix4 b c p q) idx 3 + ((winDims wf).window (ix4 b c p q) 3 : Int) < ((1024 : Nat) : Int)
      rw [hs3, hw3]; omega

/-- The window scatter (the body returning the update) read at `(b, c, h, w)`: inside the window the update's element at
    the window coordinates, outside it the image's element. -/
theorem scatter_winDims_apply (wf : ScatterDims.WF SImg SPair SWin [0, 1, 2, 3] [] [2, 3] 0)
    (img : SImg.Idx → α) (upd : SWin.Idx → α) (idx : IVec SPair 32)
    (hs ws : Nat) (hhs : hs + 256 ≤ 1024) (hws : ws + 256 ≤ 1024)
    (h0 : idx (ix1 0) = BitVec.ofNat 32 hs) (h1 : idx (ix1 1) = BitVec.ofNat 32 ws)
    (b : Fin 2) (c : Fin 3) (h w : Fin 1024) :
    Host.scatter (winDims wf) (fun _ v => v) img idx upd (ix4 b c h w)
      = if hin : (hs ≤ h.val ∧ h.val < hs + 256) ∧ (ws ≤ w.val ∧ w.val < ws + 256)
        then upd (ix4 b c ⟨h.val - hs, by omega⟩ ⟨w.val - ws, by omega⟩) else img (ix4 b c h w) := by
  have hres := resultIdx_winDims wf idx hs ws hhs hws h0 h1
  split
  · next hin =>
    refine scatter_apply_of_hit (winDims wf) _ img idx upd (ix4 b c ⟨h.val - hs, by omega⟩ ⟨w.val - ws, by omega⟩) (ix4 b c h w) ?_ ?_
    · rw [hres]
      congr 2
      · exact Fin.ext (by show hs + (h.val - hs) = h.val; omega)
      · exact Fin.ext (by show ws + (w.val - ws) = w.val; omega)
    · intro j' hj'
      obtain ⟨b', c', p', q', rfl⟩ : ∃ b' c' p' q', j' = ix4 b' c' p' q' := ⟨j' 0, j' 1, j' 2, j' 3, eq_ix4 j'⟩
      rw [hres] at hj'
      have e := Option.some.inj hj'
      have e0 : b' = b := congrFun e 0
      have e1 : c' = c := congrFun e 1
      have e2 : hs + p'.val = h.val := congrArg Fin.val (congrFun e 2)
      have e3 : ws + q'.val = w.val := congrArg Fin.val (congrFun e 3)
      subst e0 e1
      congr 1
      · exact Fin.ext (by show p'.val = h.val - hs; omega)
      · exact Fin.ext (by show q'.val = w.val - ws; omega)
  · next hin =>
    refine scatter_apply_of_miss (winDims wf) _ img idx upd (ix4 b c h w) fun j' hj' => hin ?_
    obtain ⟨b', c', p', q', rfl⟩ : ∃ b' c' p' q', j' = ix4 b' c' p' q' := ⟨j' 0, j' 1, j' 2, j' 3, eq_ix4 j'⟩
    rw [hres] at hj'
    have e := Option.some.inj hj'
    have e2 : hs + p'.val = h.val := congrArg Fin.val (congrFun e 2)
    have e3 : ws + q'.val = w.val := congrArg Fin.val (congrFun e 3)
    have := p'.isLt
    have := q'.isLt
    omega

/-- The same for any dimension numbers with those lists. -/
theorem scatter_window_apply (d : ScatterDims SImg SPair SWin)
    (huw : d.updateWindowDims = [0, 1, 2, 3]) (hiw : d.insertedWindowDims = []) (hsd : d.scatterDimsToOperandDims = [2, 3])
    (hiv : d.indexVectorDim = 0)
    (img : SImg.Idx → α) (upd : SWin.Idx → α) (idx : IVec SPair 32)
    (hs ws : Nat) (hhs : hs + 256 ≤ 1024) (hws : ws + 256 ≤ 1024)
    (h0 : idx (ix1 0) = BitVec.ofNat 32 hs) (h1 : idx (ix1 1) = BitVec.ofNat 32 ws)
    (b : Fin 2) (c : Fin 3) (h w : Fin 1024) :
    Host.scatter d (fun _ v => v) img idx upd (ix4 b c h w)
      = if hin : (hs ≤ h.val ∧ h.val < hs + 256) ∧ (ws ≤ w.val ∧ w.val < ws + 256)
        then upd (ix4 b c ⟨h.val - hs, by omega⟩ ⟨w.val - ws, by omega⟩) else img (ix4 b c h w) := by
  obtain ⟨uw, iw, sd, iv, wf⟩ := d
  simp only at huw hiw hsd hiv
  subst huw hiw hsd hiv
  exact scatter_winDims_apply wf img upd idx hs ws hhs hws h0 h1 b c h w

end Scatter

end Cert.PatchUpdate
-- ==== Proof.RefValue.lean ====
/-
  THE VALUE OF THE IDEALIZED REFERENCE. The reference starts the image at −∞ and folds the 49 patches into it one at a time:
  patch n = 7·i + j replaces the 256 × 256 window at offset (128·i, 128·j) by its pointwise maximum with the patch. After
  the first n patches every image element holds the largest contribution of the covering patches among them (−∞ when
  none covers it): true of the −∞ image for n = 0, and kept by each step, which changes an element exactly when the
  step's patch covers it, to the maximum with that patch's contribution. After all 49 the image is the whole-image
  function the kernel computes, since the largest covering contribution is unique.
-/
import proofs.«152043_j16088947491442_1_alg».proof.Proof.Gen.ReferenceIdeal.Run
import proofs.«152043_j16088947491442_1_alg».proof.Proof.PatchUpdate
import proofs.«152043_j16088947491442_1_alg».proof.Proof.PatchSpec
import Idealize.ShloMosaic.PureOps.Ideal
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem
open Cert.PatchMath

/-! ## One step -/

/-- The step for patch `n` at window offset `(hs, ws)`: the image with that window replaced by its maximum with the patch. -/
abbrev step (hs ws n : Nat) (h1 : S2x3x1024x1024.Slices ![0, 0, hs, ws] S2x3x256x256)
    (h2 : S49x2x3x256x256.Slices ![n, 0, 0, 0, 0] S1x2x3x256x256)
    (img : FVec Ideal S2x3x1024x1024 .f32) (x : FVec Ideal S49x2x3x256x256 .f32) : FVec Ideal S2x3x1024x1024 .f32 :=
  Host.scatter scatter_S2x3x1024x1024_S2_S2x3x256x256_0123_n_23_0 (fun _ b => b) img
    (concatenate S2 0 [⟨S1, (broadcastInDim S1 ![] bcast_S_S1 (constantI S_ 32 (BitVec.ofNat 32 hs)))⟩,
      ⟨S1, (broadcastInDim S1 ![] bcast_S_S1 (constantI S_ 32 (BitVec.ofNat 32 ws)))⟩] concatenates_S1_S1_S2_d0)
    (maximumf (extractStridedSlice S2x3x256x256 ![0, 0, hs, ws] img h1)
      (shapeCast _ (extractStridedSlice S1x2x3x256x256 ![n, 0, 0, 0, 0] x h2) shapeCasts_S1x2x3x256x256_S2x3x256x256))

/-- The start index pair reads `hs` then `ws`. -/
theorem pair_zero (a b : BitVec 32) :
    concatenate S2 0 [⟨S1, (broadcastInDim S1 ![] bcast_S_S1 (constantI S_ 32 a))⟩,
      ⟨S1, (broadcastInDim S1 ![] bcast_S_S1 (constantI S_ 32 b))⟩] concatenates_S1_S1_S2_d0 (ix1 (0 : Fin 2)) = a := by
  rfl
theorem pair_one (a b : BitVec 32) :
    concatenate S2 0 [⟨S1, (broadcastInDim S1 ![] bcast_S_S1 (constantI S_ 32 a))⟩,
      ⟨S1, (broadcastInDim S1 ![] bcast_S_S1 (constantI S_ 32 b))⟩] concatenates_S1_S1_S2_d0 (ix1 (1 : Fin 2)) = b := by
  rfl

/-- THE STEP READ AT AN ELEMENT: inside the window the maximum of what the image held and the patch's element at the
    window coordinates; outside, what the image held. -/
theorem step_apply (hs ws n : Nat) (hhs : hs + 256 ≤ 1024) (hws : ws + 256 ≤ 1024) (hn : n < 49)
    (h1 : S2x3x1024x1024.Slices ![0, 0, hs, ws] S2x3x256x256) (h2 : S49x2x3x256x256.Slices ![n, 0, 0, 0, 0] S1x2x3x256x256)
    (img : FVec Ideal S2x3x1024x1024 .f32) (x : FVec Ideal S49x2x3x256x256 .f32) (b : Fin 2) (c : Fin 3) (h w : Fin 1024) :
    step hs ws n h1 h2 img x (ix4 b c h w)
      = if (hs ≤ h.val ∧ h.val < hs + 256) ∧ (ws ≤ w.val ∧ w.val < ws + 256)
        then max (img (ix4 b c h w)) (PatchSpec.elt x b c n (h.val - hs) (w.val - ws)) else img (ix4 b c h w) := by
  show Host.scatter _ _ _ _ _ _ = _
  rw [PatchUpdate.scatter_window_apply scatter_S2x3x1024x1024_S2_S2x3x256x256_0123_n_23_0 rfl rfl rfl rfl _ _ _ hs ws hhs hws
    (pair_zero _ _) (pair_one _ _)]
  by_cases hin : (hs ≤ h.val ∧ h.val < hs + 256) ∧ (ws ≤ w.val ∧ w.val < ws + 256)
  · rw [dif_pos hin, if_pos hin, maximumf_apply]
    congr 1
    · refine extractStridedSlice_apply _ img h1 _ (ix4 b c h w) fun a => ?_
      match a with
      | ⟨0, _⟩ => show b.val = 0 + b.val; omega
      | ⟨1, _⟩ => show c.val = 0 + c.val; omega
      | ⟨2, _⟩ => show h.val = hs + (h.val - hs); omega
      | ⟨3, _⟩ => show w.val = ws + (w.val - ws); omega
    · refine Eq.trans ?_ (PatchSpec.elt_eq x b c ⟨n, hn⟩ ⟨h.val - hs, by omega⟩ ⟨w.val - ws, by omega⟩).symm
      refine (shapeCast_apply _ _ _ (ix5 (0 : Fin 1) b c (⟨h.val - hs, by omega⟩ : Fin 256) (⟨w.val - ws, by omega⟩ : Fin 256)) (by
        rw [Shape.rowMajor_val_five, Shape.rowMajor_val_four]
        show (((0 * 2 + b.val) * 3 + c.val) * 256 + (h.val - hs)) * 256 + (w.val - ws) = ((b.val * 3 + c.val) * 256 + (h.val - hs)) * 256 + (w.val - ws)
        rw [Nat.zero_mul, Nat.zero_add])).trans ?_
      refine extractStridedSlice_apply _ x h2 _ _ fun a => ?_
      match a with
      | ⟨0, _⟩ => show n = n + 0; omega
      | ⟨1, _⟩ => show b.val = 0 + b.val; omega
      | ⟨2, _⟩ => show c.val = 0 + c.val; omega
      | ⟨3, _⟩ => show h.val - hs = 0 + (h.val - hs); omega
      | ⟨4, _⟩ => show w.val - ws = 0 + (w.val - ws); omega
  · rw [dif_neg hin, if_neg hin]

/-! ## The invariant -/

/-- After the first `n` patches every element holds the largest contribution of the covering patches among them. -/
def Inv (n : Nat) (img : FVec Ideal S2x3x1024x1024 .f32) (x : FVec Ideal S49x2x3x256x256 .f32) : Prop :=
  ∀ (b : Fin 2) (c : Fin 3) (h w : Fin 1024), IsTop (PatchSpec.elt x b c) h.val w.val n (img (ix4 b c h w))

/-- The image of −∞ before any patch. -/
theorem inv_zero (V0 : Valuation τ sig (Elt Ideal)) (x : FVec Ideal S49x2x3x256x256 .f32) : Inv 0 (res_main_v0 V0) x := by
  intro b c h w
  have e : res_main_v0 (F := Ideal) V0 (ix4 b c h w) = (⊥ : EReal) := by
    show Ideal.ofBits .f32 0xFF800000#32 = (⊥ : EReal)
    simp [Ideal.ofBits, Ideal.ieee]
  rw [e]
  exact isTop_zero _ _ _

/-- One more patch keeps the invariant. -/
theorem inv_step (n hs ws : Nat) (hn : n < 49) (ehs : hs = 128 * (n / 7)) (ews : ws = 128 * (n % 7))
    (h1 : S2x3x1024x1024.Slices ![0, 0, hs, ws] S2x3x256x256) (h2 : S49x2x3x256x256.Slices ![n, 0, 0, 0, 0] S1x2x3x256x256)
    (img : FVec Ideal S2x3x1024x1024 .f32) (x : FVec Ideal S49x2x3x256x256 .f32) (hinv : Inv n img x) :
    Inv (n + 1) (step hs ws n h1 h2 img x) x := by
  intro b c h w
  rw [step_apply hs ws n (by omega) (by omega) hn h1 h2 img x b c h w]
  have key := isTop_step (PatchSpec.elt x b c) h.val w.val n _ (hinv b c h w)
  subst ehs ews
  exact key

/-! ## The 49 stages

Stage `n` folds patch `n = 7·i + j` in at window offset `(128·i, 128·j)`; each is the step above at its literal numbers. -/

variable (V0 : Valuation τ sig (Elt Ideal))

/-- The argument's contents. -/
abbrev arg : FVec Ideal S49x2x3x256x256 .f32 := V0 (Proc.devRef .tc main_arg0)

theorem inv_8 : Inv 1 (res_main_v8 V0) (arg V0) :=
  inv_step 0 0 0 (by omega) rfl rfl _ _ _ _ (inv_zero V0 _)
theorem inv_16 : Inv 2 (res_main_v16 V0) (arg V0) :=
  inv_step 1 0 128 (by omega) rfl rfl _ _ _ _ (inv_8 V0)
theorem inv_24 : Inv 3 (res_main_v24 V0) (arg V0) :=
  inv_step 2 0 256 (by omega) rfl rfl _ _ _ _ (inv_16 V0)
theorem inv_32 : Inv 4 (res_main_v32 V0) (arg V0) :=
  inv_step 3 0 384 (by omega) rfl rfl _ _ _ _ (inv_24 V0)
theorem inv_40 : Inv 5 (res_main_v40 V0) (arg V0) :=
  inv_step 4 0 512 (by omega) rfl rfl _ _ _ _ (inv_32 V0)
theorem inv_48 : Inv 6 (res_main_v48 V0) (arg V0) :=
  inv_step 5 0 640 (by omega) rfl rfl _ _ _ _ (inv_40 V0)
theorem inv_56 : Inv 7 (res_main_v56 V0) (arg V0) :=
  inv_step 6 0 768 (by omega) rfl rfl _ _ _ _ (inv_48 V0)
theorem inv_64 : Inv 8 (res_main_v64 V0) (arg V0) :=
  inv_step 7 128 0 (by omega) rfl rfl _ _ _ _ (inv_56 V0)
theorem inv_72 : Inv 9 (res_main_v72 V0) (arg V0) :=
  inv_step 8 128 128 (by omega) rfl rfl _ _ _ _ (inv_64 V0)
theorem inv_80 : Inv 10 (res_main_v80 V0) (arg V0) :=
  inv_step 9 128 256 (by omega) rfl rfl _ _ _ _ (inv_72 V0)
theorem inv_88 : Inv 11 (res_main_v88 V0) (arg V0) :=
  inv_step 10 128 384 (by omega) rfl rfl _ _ _ _ (inv_80 V0)
theorem inv_96 : Inv 12 (res_main_v96 V0) (arg V0) :=
  inv_step 11 128 512 (by omega) rfl rfl _ _ _ _ (inv_88 V0)
theorem inv_104 : Inv 13 (res_main_v104 V0) (arg V0) :=
  inv_step 12 128 640 (by omega) rfl rfl _ _ _ _ (inv_96 V0)
theorem inv_112 : Inv 14 (res_main_v112 V0) (arg V0) :=
  inv_step 13 128 768 (by omega) rfl rfl _ _ _ _ (inv_104 V0)
theorem inv_120 : Inv 15 (res_main_v120 V0) (arg V0) :=
  inv_step 14 256 0 (by omega) rfl rfl _ _ _ _ (inv_112 V0)
theorem inv_128 : Inv 16 (res_main_v128 V0) (arg V0) :=
  inv_step 15 256 128 (by omega) rfl rfl _ _ _ _ (inv_120 V0)
theorem inv_136 : Inv 17 (res_main_v136 V0) (arg V0) :=
  inv_step 16 256 256 (by omega) rfl rfl _ _ _ _ (inv_128 V0)
theorem inv_144 : Inv 18 (res_main_v144 V0) (arg V0) :=
  inv_step 17 256 384 (by omega) rfl rfl _ _ _ _ (inv_136 V0)
theorem inv_152 : Inv 19 (res_main_v152 V0) (arg V0) :=
  inv_step 18 256 512 (by omega) rfl rfl _ _ _ _ (inv_144 V0)
theorem inv_160 : Inv 20 (res_main_v160 V0) (arg V0) :=
  inv_step 19 256 640 (by omega) rfl rfl _ _ _ _ (inv_152 V0)
theorem inv_168 : Inv 21 (res_main_v168 V0) (arg V0) :=
  inv_step 20 256 768 (by omega) rfl rfl _ _ _ _ (inv_160 V0)
theorem inv_176 : Inv 22 (res_main_v176 V0) (arg V0) :=
  inv_step 21 384 0 (by omega) rfl rfl _ _ _ _ (inv_168 V0)
theorem inv_184 : Inv 23 (res_main_v184 V0) (arg V0) :=
  inv_step 22 384 128 (by omega) rfl rfl _ _ _ _ (inv_176 V0)
theorem inv_192 : Inv 24 (res_main_v192 V0) (arg V0) :=
  inv_step 23 384 256 (by omega) rfl rfl _ _ _ _ (inv_184 V0)
theorem inv_200 : Inv 25 (res_main_v200 V0) (arg V0) :=
  inv_step 24 384 384 (by omega) rfl rfl _ _ _ _ (inv_192 V0)
theorem inv_208 : Inv 26 (res_main_v208 V0) (arg V0) :=
  inv_step 25 384 512 (by omega) rfl rfl _ _ _ _ (inv_200 V0)
theorem inv_216 : Inv 27 (res_main_v216 V0) (arg V0) :=
  inv_step 26 384 640 (by omega) rfl rfl _ _ _ _ (inv_208 V0)
theorem inv_224 : Inv 28 (res_main_v224 V0) (arg V0) :=
  inv_step 27 384 768 (by omega) rfl rfl _ _ _ _ (inv_216 V0)
theorem inv_232 : Inv 29 (res_main_v232 V0) (arg V0) :=
  inv_step 28 512 0 (by omega) rfl rfl _ _ _ _ (inv_224 V0)
theorem inv_240 : Inv 30 (res_main_v240 V0) (arg V0) :=
  inv_step 29 512 128 (by omega) rfl rfl _ _ _ _ (inv_232 V0)
theorem inv_248 : Inv 31 (res_main_v248 V0) (arg V0) :=
  inv_step 30 512 256 (by omega) rfl rfl _ _ _ _ (inv_240 V0)
theorem inv_256 : Inv 32 (res_main_v256 V0) (arg V0) :=
  inv_step 31 512 384 (by omega) rfl rfl _ _ _ _ (inv_248 V0)
theorem inv_264 : Inv 33 (res_main_v264 V0) (arg V0) :=
  inv_step 32 512 512 (by omega) rfl rfl _ _ _ _ (inv_256 V0)
theorem inv_272 : Inv 34 (res_main_v272 V0) (arg V0) :=
  inv_step 33 512 640 (by omega) rfl rfl _ _ _ _ (inv_264 V0)
theorem inv_280 : Inv 35 (res_main_v280 V0) (arg V0) :=
  inv_step 34 512 768 (by omega) rfl rfl _ _ _ _ (inv_272 V0)
theorem inv_288 : Inv 36 (res_main_v288 V0) (arg V0) :=
  inv_step 35 640 0 (by omega) rfl rfl _ _ _ _ (inv_280 V0)
theorem inv_296 : Inv 37 (res_main_v296 V0) (arg V0) :=
  inv_step 36 640 128 (by omega) rfl rfl _ _ _ _ (inv_288 V0)
theorem inv_304 : Inv 38 (res_main_v304 V0) (arg V0) :=
  inv_step 37 640 256 (by omega) rfl rfl _ _ _ _ (inv_296 V0)
theorem inv_312 : Inv 39 (res_main_v312 V0) (arg V0) :=
  inv_step 38 640 384 (by omega) rfl rfl _ _ _ _ (inv_304 V0)
theorem inv_320 : Inv 40 (res_main_v320 V0) (arg V0) :=
  inv_step 39 640 512 (by omega) rfl rfl _ _ _ _ (inv_312 V0)
theorem inv_328 : Inv 41 (res_main_v328 V0) (arg V0) :=
  inv_step 40 640 640 (by omega) rfl rfl _ _ _ _ (inv_320 V0)
theorem inv_336 : Inv 42 (res_main_v336 V0) (arg V0) :=
  inv_step 41 640 768 (by omega) rfl rfl _ _ _ _ (inv_328 V0)
theorem inv_344 : Inv 43 (res_main_v344 V0) (arg V0) :=
  inv_step 42 768 0 (by omega) rfl rfl _ _ _ _ (inv_336 V0)
theorem inv_352 : Inv 44 (res_main_v352 V0) (arg V0) :=
  inv_step 43 768 128 (by omega) rfl rfl _ _ _ _ (inv_344 V0)
theorem inv_360 : Inv 45 (res_main_v360 V0) (arg V0) :=
  inv_step 44 768 256 (by omega) rfl rfl _ _ _ _ (inv_352 V0)
theorem inv_368 : Inv 46 (res_main_v368 V0) (arg V0) :=
  inv_step 45 768 384 (by omega) rfl rfl _ _ _ _ (inv_360 V0)
theorem inv_376 : Inv 47 (res_main_v376 V0) (arg V0) :=
  inv_step 46 768 512 (by omega) rfl rfl _ _ _ _ (inv_368 V0)
theorem inv_384 : Inv 48 (res_main_v384 V0) (arg V0) :=
  inv_step 47 768 640 (by omega) rfl rfl _ _ _ _ (inv_376 V0)

/-- The last stage, patch 48 at offset (768, 768), written over the last named stage. -/
theorem inv_last : Inv 49 (step 768 768 48 slices_S2x3x1024x1024_S2x3x256x256_0_0_768_768 slices_S49x2x3x256x256_S1x2x3x256x256_48_0_0_0_0
    (res_main_v384 V0) (arg V0)) (arg V0) :=
  inv_step 48 768 768 (by omega) rfl rfl _ _ _ _ (inv_384 V0)

/-- After all 49 patches the image is the whole-image function of the argument: at every element both are the largest
    covering contribution, which is unique. -/
theorem result_eq :
    step 768 768 48 slices_S2x3x1024x1024_S2x3x256x256_0_0_768_768 slices_S49x2x3x256x256_S1x2x3x256x256_48_0_0_0_0
        (res_main_v384 V0) (arg V0) = PatchSpec.G (arg V0) := by
  funext i
  obtain ⟨b, c, h, w, rfl⟩ : ∃ (b : Fin 2) (c : Fin 3) (h w : Fin 1024), i = ix4 b c h w := ⟨i 0, i 1, i 2, i 3, eq_ix4 i⟩
  exact isTop_unique (PatchSpec.elt (arg V0) b c) h.val w.val 49 _ _ (inv_last V0 b c h w)
    (fourMax_isTop (PatchSpec.elt (arg V0) b c) h.val w.val h.isLt w.isLt)

end Cert.ReferenceIdeal.RefValue

end
-- ==== Proof.lean ====
/-
  The kernel writes, into each 128 × 128 cell of a [2, 3, 1024, 1024] image, the pointwise maximum of the (at most four)
  256 × 256 patches of the argument that cover the cell, reading the four candidate corners through four windows on the
  one argument array and masking a candidate whose patch index was clamped to −∞. The reference starts the image at −∞ and
  folds the 49 patches in one at a time, each over its own window, by a maximum. At the extended reals both leave, at every
  element, the largest contribution of the covering patches (−∞ where none covers): the maximum is commutative,
  associative and idempotent there and −∞ is its identity, so no finiteness of the input is used.

  The two kernel programs' frames come from one launch of the pipeline with the argument's share dealt in quarters to the
  four windows that read it; the reference's frame is its run with the result dropped; the idealization rewrote nothing.
-/
import proofs.«152043_j16088947491442_1_alg».proof.Defs
import proofs.«152043_j16088947491442_1_alg».proof.Proof.Gen.Kernel
import proofs.«152043_j16088947491442_1_alg».proof.Proof.Gen.KernelIdeal
import proofs.«152043_j16088947491442_1_alg».proof.Proof.Gen.ReferenceIdeal
import proofs.«152043_j16088947491442_1_alg».proof.Proof.Gen.Pre_finite_inputs
import proofs.«152043_j16088947491442_1_alg».proof.Proof.Gen.ReferenceIdeal.Run
import proofs.«152043_j16088947491442_1_alg».proof.Proof.KernelFrame
import proofs.«152043_j16088947491442_1_alg».proof.Proof.IdealFrame
import proofs.«152043_j16088947491442_1_alg».proof.Proof.IdealValue
import proofs.«152043_j16088947491442_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Patch.frame m ρ

theorem frame_ki : Cert.frame_KernelIdeal := fun m ρ _ => Cert.KernelIdeal.Patch.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the argument both programs end with the result at the largest covering patch value of the
    argument, element by element. -/
theorem algebraic : Cert.algebraic_KernelIdeal_ReferenceIdeal := by
  intro m ρ m' ρ' _ hagree
  refine ⟨fun c => Cert.PatchSpec.G (m ((c.tc : Thread Cert.KernelIdeal.nD Cert.KernelIdeal.τ).loc Cert.KernelIdeal.main_arg0)),
    Cert.KernelIdeal.PatchValue.run m ρ, ?_⟩
  refine (θ_run Cert.ReferenceIdeal.defs _ _).mono (fun _ h c => ⟨(h c).1.trans ?_, (h c).2⟩)
    (Cert.ReferenceIdeal.Value.run (F := Ideal) m' ρ')
  show _ = Cert.PatchSpec.G (m ((c.tc : Thread Cert.KernelIdeal.nD Cert.KernelIdeal.τ).loc Cert.KernelIdeal.main_arg0))
  rw [← hagree c]
  exact Cert.ReferenceIdeal.RefValue.result_eq (StableHlo.launchContents m' c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
